-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x256 .f32) (main_arg3 : FVec F S256 .f32) (main_arg4 : FVec F S256x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x256 : Shape := ⟨2, ![100000, 256]⟩
abbrev S10000x128 : Shape := ⟨2, ![10000, 128]⟩
abbrev S10000x256 : Shape := ⟨2, ![10000, 256]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩
abbrev S800000x128 : Shape := ⟨2, ![800000, 128]⟩
abbrev S1x128 : Shape := ⟨2, ![1, 128]⟩
abbrev S2000x128 : Shape := ⟨2, ![2000, 128]⟩
abbrev S100000x64 : Shape := ⟨2, ![100000, 64]⟩
abbrev S10000x64 : Shape := ⟨2, ![10000, 64]⟩
abbrev S800000x64 : Shape := ⟨2, ![800000, 64]⟩
abbrev S1x64 : Shape := ⟨2, ![1, 64]⟩
abbrev S2000x64 : Shape := ⟨2, ![2000, 64]⟩
abbrev S10000x1 : Shape := ⟨2, ![10000, 1]⟩
abbrev S1x1 : Shape := ⟨2, ![1, 1]⟩

abbrev nBuf : Space → Nat
  | .hbm => 143
  | .vmem => 52
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S100000, .f32⟩
  | 18 => ⟨S800000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S100000x1, .f32⟩
  | 26 => ⟨S100000x256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x1, .f32⟩
  | 56 => ⟨S800000x256, .f32⟩
  | 57 => ⟨S800000x256, .f32⟩
  | 58 => ⟨S_, .f32⟩
  | 59 => ⟨S100000x256, .f32⟩
  | 60 => ⟨S800000x1, .i32⟩
  | 61 => ⟨S100000x256, .f32⟩
  | 62 => ⟨S1x256, .f32⟩
  | 63 => ⟨S100000x256, .f32⟩
  | 64 => ⟨S100000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x1, .f32⟩
  | 94 => ⟨S800000x128, .f32⟩
  | 95 => ⟨S800000x128, .f32⟩
  | 96 => ⟨S_, .f32⟩
  | 97 => ⟨S100000x128, .f32⟩
  | 98 => ⟨S800000x1, .i32⟩
  | 99 => ⟨S100000x128, .f32⟩
  | 100 => ⟨S1x128, .f32⟩
  | 101 => ⟨S100000x128, .f32⟩
  | 102 => ⟨S100000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x128, .f32⟩

abbrev hbmTy0_1 (i : Nat) : BufTy := match i % 128 with
  | 0 => ⟨S800000, .i32⟩
  | 1 => ⟨S800000x1, .i32⟩
  | 2 => ⟨S800000x64, .f32⟩
  | 3 => ⟨S800000x1, .f32⟩
  | 4 => ⟨S800000x64, .f32⟩
  | 5 => ⟨S800000x64, .f32⟩
  | 6 => ⟨S_, .f32⟩
  | 7 => ⟨S100000x64, .f32⟩
  | 8 => ⟨S800000x1, .i32⟩
  | 9 => ⟨S100000x64, .f32⟩
  | 10 => ⟨S1x64, .f32⟩
  | 11 => ⟨S100000x64, .f32⟩
  | 12 => ⟨S100000x1, .f32⟩
  | 13 => ⟨S1x1, .f32⟩
  | 14 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S10000x256, .f32⟩
  | .local _ .vmem, ⟨4, _⟩ => ⟨S10000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S10000x256, .f32⟩
  | .local _ .vmem, ⟨15, _⟩ => ⟨S10000x256, .f32⟩
  | .local _ .vmem, ⟨16, _⟩ => ⟨S256x128, .f32⟩
  | .local _ .vmem, ⟨17, _⟩ => ⟨S10000x128, .f32⟩
  | .local _ .vmem, ⟨18, _⟩ => ⟨S10000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S10000x128, .f32⟩
  | .local _ .vmem, ⟨29, _⟩ => ⟨S10000x128, .f32⟩
  | .local _ .vmem, ⟨30, _⟩ => ⟨S128x64, .f32⟩
  | .local _ .vmem, ⟨31, _⟩ => ⟨S10000x64, .f32⟩
  | .local _ .vmem, ⟨32, _⟩ => ⟨S10000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S10000x64, .f32⟩
  | .local _ .vmem, ⟨43, _⟩ => ⟨S10000x64, .f32⟩
  | .local _ .vmem, ⟨44, _⟩ => ⟨S64x1, .f32⟩
  | .local _ .vmem, ⟨45, _⟩ => ⟨S10000x1, .f32⟩
  | .local _ .vmem, ⟨46, _⟩ => ⟨S10000x1, .f32⟩
  | .local _ .vmem, ⟨47, _⟩ => ⟨S2000x1, .f32⟩
  | .local _ .vmem, ⟨48, _⟩ => ⟨S2000x1, .f32⟩
  | .local _ .vmem, ⟨49, _⟩ => ⟨S1x1, .f32⟩
  | .local _ .vmem, ⟨50, _⟩ => ⟨S2000x1, .f32⟩
  | .local _ .vmem, ⟨51, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_19 : Ref sig .tc := ⟨.hbm, 122, rfl⟩
abbrev main_v91 : Ref sig .tc := ⟨.hbm, 123, rfl⟩
abbrev main_v92 : Ref sig .tc := ⟨.hbm, 124, rfl⟩
abbrev main_c_20 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S10000x256_S10000x256_0_0 : ∀ a, (![0, 0] : Fin 2 → Nat) a + S10000x256.size a ≤ S10000x256.size a
  h_S10000x256 : 0 < S10000x256.numel
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S800000x1_S800000_n_0_0_1_wf : ScatterDims.WF S100000 S800000x1 S800000 [] [0] [0] 1
  dot_S10000x128_S128x256_S10000x256_1_0_0_1_n_n_wf : DotDims.WF S10000x128 S128x256 S10000x256 [1] [0] [0] [1] [] []
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S10000x256_S256x128_S10000x128_1_0_0_1_n_n_wf : DotDims.WF S10000x256 S256x128 S10000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x64_S10000x64_1_0_0_1_n_n_wf : DotDims.WF S10000x128 S128x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S100000x256.size a
  hwx0_2 : ∀ i : grid0.Coords, EltTy.bits .f32 = 32 ∨ (Rect.block (s := S100000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S100000x256.size a
  hwx2_0 : ∀ i : grid2.Coords, EltTy.bits .f32 = 32 ∨ (Rect.block (s := S100000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x1.size a ≤ S100000x1.size a
  hwx7_0 : ∀ i : grid7.Coords, EltTy.bits .f32 = 32 ∨ (Rect.block (s := S100000x1) S2000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v105) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S2000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S2000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x256 : Shape := ⟨2, ![100000, 256]⟩
abbrev S800000x256 : Shape := ⟨2, ![800000, 256]⟩
abbrev S100000x1 : Shape := ⟨2, ![100000, 1]⟩
abbrev S1x256 : Shape := ⟨2, ![1, 256]⟩
abbrev S800000x128 : Shape := ⟨2, ![800000, 128]⟩
abbrev S1x128 : Shape := ⟨2, ![1, 128]⟩
abbrev S100000x64 : Shape := ⟨2, ![100000, 64]⟩
abbrev S800000x64 : Shape := ⟨2, ![800000, 64]⟩
abbrev S1x64 : Shape := ⟨2, ![1, 64]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S100000, .f32⟩
  | 18 => ⟨S800000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x256, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S800000x256, .f32⟩
  | 55 => ⟨S800000x256, .f32⟩
  | 56 => ⟨S_, .f32⟩
  | 57 => ⟨S100000x256, .f32⟩
  | 58 => ⟨S800000x1, .i32⟩
  | 59 => ⟨S100000x256, .f32⟩
  | 60 => ⟨S100000, .f32⟩
  | 61 => ⟨S100000x1, .f32⟩
  | 62 => ⟨S100000x256, .f32⟩
  | 63 => ⟨S100000x256, .f32⟩
  | 64 => ⟨S100000x256, .f32⟩
  | 65 => ⟨S1x256, .f32⟩
  | 66 => ⟨S100000x256, .f32⟩
  | 67 => ⟨S100000x256, .f32⟩
  | 68 => ⟨S_, .f32⟩
  | 69 => ⟨S100000x256, .f32⟩
  | 70 => ⟨S100000x256, .f32⟩
  | 71 => ⟨S100000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x128, .f32⟩
  | 102 => ⟨S800000x128, .f32⟩
  | 103 => ⟨S_, .f32⟩
  | 104 => ⟨S100000x128, .f32⟩
  | 105 => ⟨S800000x1, .i32⟩
  | 106 => ⟨S100000x128, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000, .f32⟩
  | _ => ⟨S100000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S800000, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x64, .f32⟩
  | 21 => ⟨S800000x64, .f32⟩
  | 22 => ⟨S_, .f32⟩
  | 23 => ⟨S100000x64, .f32⟩
  | 24 => ⟨S800000x1, .i32⟩
  | 25 => ⟨S100000x64, .f32⟩
  | 26 => ⟨S100000, .f32⟩
  | 27 => ⟨S100000x1, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x1, .f32⟩
  | 38 => ⟨S1x1, .f32⟩
  | 39 => ⟨S100000x1, .f32⟩
  | 40 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_v87 : Ref sig .tc := ⟨.hbm, 118, rfl⟩
abbrev main_c_15 : Ref sig .tc := ⟨.hbm, 119, rfl⟩
abbrev main_v88 : Ref sig .tc := ⟨.hbm, 120, rfl⟩
abbrev main_v89 : Ref sig .tc := ⟨.hbm, 121, rfl⟩
abbrev main_c_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_v95 : Ref sig .tc := ⟨.hbm, 129, rfl⟩
abbrev main_v96 : Ref sig .tc := ⟨.hbm, 130, rfl⟩
abbrev main_c_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_19 : Ref sig .tc := ⟨.hbm, 139, rfl⟩
abbrev main_v104 : Ref sig .tc := ⟨.hbm, 140, rfl⟩
abbrev main_v105 : Ref sig .tc := ⟨.hbm, 141, rfl⟩
abbrev main_c_20 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call2_cst : Ref sig .tc := ⟨.hbm, 162, rfl⟩
abbrev main_call2_v0 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x64_S100000x64_1_0_0_1_n_n_wf : DotDims.WF S100000x128 S128x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x1_S100000x1_1_0_0_1_n_n_wf : DotDims.WF S100000x64 S64x1 S100000x1 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named: the program is eight tiled regions among stretches of host
  operations, and the contents of every buffer after the last region are a fold over those segments from the
  launch memory. This module states the run with the result buffer at that fold's value.
-/
import proofs.«175076_j1116691497086_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the program terminates without a fault; the result buffer then holds what the
    fold of the segments leaves in it — the contents after the last region, read at the result's reference — and the
    argument arrays are as launched. The same launch over the same segments as the frame, the last thread state
    read at one more buffer. -/
theorem run_result : θ_run defs (onTc (τ := τ) (main (F := F))) ⟨m, fun _ => 0, ρ⟩ (fun r => ∀ c : Dev nD,
      r.2.mem ((c.tc : Thread nD τ).loc main_v108) = W13 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v108 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.RunValue

end
-- ==== Proof.FoldKeep.lean ====
/- The kernel program is eight tiled regions among stretches of host operations, and the contents of its buffers at
   each boundary between two segments are a fold from the launch memory. Each theorem here says that one buffer holds
   at a later boundary what it held at an earlier one: no host operation in between writes it, and no region in
   between has it as an output (a region leaves its input arrays as it found them). -/
import proofs.«175076_j1116691497086_2_alg».proof.Proof.Gen.KernelIdeal.Frame

set_option maxRecDepth 16384

noncomputable section

namespace Cert.KernelIdeal.FoldKeep

open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

theorem keep_v1_1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v1_2_5 : W5 m ρ c (Proc.devRef .tc main_v1) = W2 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := show StableHlo.after hostOps1 (W2 m ρ c) (Proc.devRef .tc main_v1) = W2 m ρ c (Proc.devRef .tc main_v1) from by after_results_simp

theorem keep_v1_5_8 : W8 m ρ c (Proc.devRef .tc main_v1) = W5 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := show StableHlo.after hostOps3 (W5 m ρ c) (Proc.devRef .tc main_v1) = W5 m ρ c (Proc.devRef .tc main_v1) from by after_results_simp

theorem keep_v3_1_2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v3_2_5 : W5 m ρ c (Proc.devRef .tc main_v3) = W2 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := show StableHlo.after hostOps1 (W2 m ρ c) (Proc.devRef .tc main_v3) = W2 m ρ c (Proc.devRef .tc main_v3) from by after_results_simp

theorem keep_v3_5_8 : W8 m ρ c (Proc.devRef .tc main_v3) = W5 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := show StableHlo.after hostOps3 (W5 m ρ c) (Proc.devRef .tc main_v3) = W5 m ρ c (Proc.devRef .tc main_v3) from by after_results_simp

theorem keep_v10_1_2 : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem keep_v10_2_5 : W5 m ρ c (Proc.devRef .tc main_v10) = W2 m ρ c (Proc.devRef .tc main_v10) :=
  calc W5 m ρ c (Proc.devRef .tc main_v10)
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := show StableHlo.after hostOps1 (W2 m ρ c) (Proc.devRef .tc main_v10) = W2 m ρ c (Proc.devRef .tc main_v10) from by after_results_simp

theorem keep_v10_5_8 : W8 m ρ c (Proc.devRef .tc main_v10) = W5 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := W7_of_ne m ρ c main_v10 (by decide)
    _ = W5 m ρ c (Proc.devRef .tc main_v10) := show StableHlo.after hostOps3 (W5 m ρ c) (Proc.devRef .tc main_v10) = W5 m ρ c (Proc.devRef .tc main_v10) from by after_results_simp

theorem keep_v12_1_3 : W3 m ρ c (Proc.devRef .tc main_v12) = W1 m ρ c (Proc.devRef .tc main_v12) :=
  calc W3 m ρ c (Proc.devRef .tc main_v12)
    _ = W2 m ρ c (Proc.devRef .tc main_v12) := show StableHlo.after hostOps1 (W2 m ρ c) (Proc.devRef .tc main_v12) = W2 m ρ c (Proc.devRef .tc main_v12) from by after_results_simp
    _ = W1 m ρ c (Proc.devRef .tc main_v12) := W2_of_ne m ρ c main_v12 (by decide)

theorem keep_v12_3_6 : W6 m ρ c (Proc.devRef .tc main_v12) = W3 m ρ c (Proc.devRef .tc main_v12) :=
  calc W6 m ρ c (Proc.devRef .tc main_v12)
    _ = W5 m ρ c (Proc.devRef .tc main_v12) := show StableHlo.after hostOps3 (W5 m ρ c) (Proc.devRef .tc main_v12) = W5 m ρ c (Proc.devRef .tc main_v12) from by after_results_simp
    _ = W4 m ρ c (Proc.devRef .tc main_v12) := W5_of_ne m ρ c main_v12 (by decide)
    _ = W3 m ρ c (Proc.devRef .tc main_v12) := (W4_arr m ρ c 2).trans (((dat1 (V3 m ρ) c).arrAt_in 2 rfl _).trans (A_eq1 (V3 m ρ) c 2))

theorem keep_v12_6_9 : W9 m ρ c (Proc.devRef .tc main_v12) = W6 m ρ c (Proc.devRef .tc main_v12) :=
  calc W9 m ρ c (Proc.devRef .tc main_v12)
    _ = W8 m ρ c (Proc.devRef .tc main_v12) := show StableHlo.after hostOps5 (W8 m ρ c) (Proc.devRef .tc main_v12) = W8 m ρ c (Proc.devRef .tc main_v12) from by after_results_simp
    _ = W7 m ρ c (Proc.devRef .tc main_v12) := W8_of_ne m ρ c main_v12 (by decide)
    _ = W6 m ρ c (Proc.devRef .tc main_v12) := (W7_arr m ρ c 2).trans (((dat3 (V6 m ρ) c).arrAt_in 2 rfl _).trans (A_eq3 (V6 m ρ) c 2))

theorem keep_v13_2_3 : W3 m ρ c (Proc.devRef .tc main_v13) = W2 m ρ c (Proc.devRef .tc main_v13) :=
  calc W3 m ρ c (Proc.devRef .tc main_v13)
    _ = W2 m ρ c (Proc.devRef .tc main_v13) := show StableHlo.after hostOps1 (W2 m ρ c) (Proc.devRef .tc main_v13) = W2 m ρ c (Proc.devRef .tc main_v13) from by after_results_simp

theorem keep_v44_5_6 : W6 m ρ c (Proc.devRef .tc main_v44) = W5 m ρ c (Proc.devRef .tc main_v44) :=
  calc W6 m ρ c (Proc.devRef .tc main_v44)
    _ = W5 m ρ c (Proc.devRef .tc main_v44) := show StableHlo.after hostOps3 (W5 m ρ c) (Proc.devRef .tc main_v44) = W5 m ρ c (Proc.devRef .tc main_v44) from by after_results_simp

theorem keep_v75_8_9 : W9 m ρ c (Proc.devRef .tc main_v75) = W8 m ρ c (Proc.devRef .tc main_v75) :=
  calc W9 m ρ c (Proc.devRef .tc main_v75)
    _ = W8 m ρ c (Proc.devRef .tc main_v75) := show StableHlo.after hostOps5 (W8 m ρ c) (Proc.devRef .tc main_v75) = W8 m ρ c (Proc.devRef .tc main_v75) from by after_results_simp

theorem keep_v106_11_12 : W12 m ρ c (Proc.devRef .tc main_v106) = W11 m ρ c (Proc.devRef .tc main_v106) :=
  calc W12 m ρ c (Proc.devRef .tc main_v106)
    _ = W11 m ρ c (Proc.devRef .tc main_v106) := show StableHlo.after hostOps7 (W11 m ρ c) (Proc.devRef .tc main_v106) = W11 m ρ c (Proc.devRef .tc main_v106) from by after_results_simp

theorem keep_arg0_0_1 : W1 m ρ c (Proc.devRef .tc main_arg0) = W0 m ρ c (Proc.devRef .tc main_arg0) :=
  calc W1 m ρ c (Proc.devRef .tc main_arg0)
    _ = W0 m ρ c (Proc.devRef .tc main_arg0) := show StableHlo.after hostOps0 (W0 m ρ c) (Proc.devRef .tc main_arg0) = W0 m ρ c (Proc.devRef .tc main_arg0) from by after_results_simp

theorem keep_arg2_0_1 : W1 m ρ c (Proc.devRef .tc main_arg2) = W0 m ρ c (Proc.devRef .tc main_arg2) :=
  calc W1 m ρ c (Proc.devRef .tc main_arg2)
    _ = W0 m ρ c (Proc.devRef .tc main_arg2) := show StableHlo.after hostOps0 (W0 m ρ c) (Proc.devRef .tc main_arg2) = W0 m ρ c (Proc.devRef .tc main_arg2) from by after_results_simp

theorem keep_arg3_0_2 : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := show StableHlo.after hostOps0 (W0 m ρ c) (Proc.devRef .tc main_arg3) = W0 m ρ c (Proc.devRef .tc main_arg3) from by after_results_simp

theorem keep_arg4_0_4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := show StableHlo.after hostOps1 (W2 m ρ c) (Proc.devRef .tc main_arg4) = W2 m ρ c (Proc.devRef .tc main_arg4) from by after_results_simp
    _ = W1 m ρ c (Proc.devRef .tc main_arg4) := W2_of_ne m ρ c main_arg4 (by decide)
    _ = W0 m ρ c (Proc.devRef .tc main_arg4) := show StableHlo.after hostOps0 (W0 m ρ c) (Proc.devRef .tc main_arg4) = W0 m ρ c (Proc.devRef .tc main_arg4) from by after_results_simp

theorem keep_arg5_0_5 : W5 m ρ c (Proc.devRef .tc main_arg5) = W0 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := show StableHlo.after hostOps1 (W2 m ρ c) (Proc.devRef .tc main_arg5) = W2 m ρ c (Proc.devRef .tc main_arg5) from by after_results_simp
    _ = W1 m ρ c (Proc.devRef .tc main_arg5) := W2_of_ne m ρ c main_arg5 (by decide)
    _ = W0 m ρ c (Proc.devRef .tc main_arg5) := show StableHlo.after hostOps0 (W0 m ρ c) (Proc.devRef .tc main_arg5) = W0 m ρ c (Proc.devRef .tc main_arg5) from by after_results_simp

theorem keep_arg6_0_7 : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := show StableHlo.after hostOps3 (W5 m ρ c) (Proc.devRef .tc main_arg6) = W5 m ρ c (Proc.devRef .tc main_arg6) from by after_results_simp
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := show StableHlo.after hostOps1 (W2 m ρ c) (Proc.devRef .tc main_arg6) = W2 m ρ c (Proc.devRef .tc main_arg6) from by after_results_simp
    _ = W1 m ρ c (Proc.devRef .tc main_arg6) := W2_of_ne m ρ c main_arg6 (by decide)
    _ = W0 m ρ c (Proc.devRef .tc main_arg6) := show StableHlo.after hostOps0 (W0 m ρ c) (Proc.devRef .tc main_arg6) = W0 m ρ c (Proc.devRef .tc main_arg6) from by after_results_simp

theorem keep_arg7_0_8 : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := show StableHlo.after hostOps3 (W5 m ρ c) (Proc.devRef .tc main_arg7) = W5 m ρ c (Proc.devRef .tc main_arg7) from by after_results_simp
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := show StableHlo.after hostOps1 (W2 m ρ c) (Proc.devRef .tc main_arg7) = W2 m ρ c (Proc.devRef .tc main_arg7) from by after_results_simp
    _ = W1 m ρ c (Proc.devRef .tc main_arg7) := W2_of_ne m ρ c main_arg7 (by decide)
    _ = W0 m ρ c (Proc.devRef .tc main_arg7) := show StableHlo.after hostOps0 (W0 m ρ c) (Proc.devRef .tc main_arg7) = W0 m ρ c (Proc.devRef .tc main_arg7) from by after_results_simp

theorem keep_arg8_0_10 : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := show StableHlo.after hostOps5 (W8 m ρ c) (Proc.devRef .tc main_arg8) = W8 m ρ c (Proc.devRef .tc main_arg8) from by after_results_simp
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := show StableHlo.after hostOps3 (W5 m ρ c) (Proc.devRef .tc main_arg8) = W5 m ρ c (Proc.devRef .tc main_arg8) from by after_results_simp
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := show StableHlo.after hostOps1 (W2 m ρ c) (Proc.devRef .tc main_arg8) = W2 m ρ c (Proc.devRef .tc main_arg8) from by after_results_simp
    _ = W1 m ρ c (Proc.devRef .tc main_arg8) := W2_of_ne m ρ c main_arg8 (by decide)
    _ = W0 m ρ c (Proc.devRef .tc main_arg8) := show StableHlo.after hostOps0 (W0 m ρ c) (Proc.devRef .tc main_arg8) = W0 m ρ c (Proc.devRef .tc main_arg8) from by after_results_simp

theorem keep_arg9_0_11 : W11 m ρ c (Proc.devRef .tc main_arg9) = W0 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := show StableHlo.after hostOps5 (W8 m ρ c) (Proc.devRef .tc main_arg9) = W8 m ρ c (Proc.devRef .tc main_arg9) from by after_results_simp
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := show StableHlo.after hostOps3 (W5 m ρ c) (Proc.devRef .tc main_arg9) = W5 m ρ c (Proc.devRef .tc main_arg9) from by after_results_simp
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := show StableHlo.after hostOps1 (W2 m ρ c) (Proc.devRef .tc main_arg9) = W2 m ρ c (Proc.devRef .tc main_arg9) from by after_results_simp
    _ = W1 m ρ c (Proc.devRef .tc main_arg9) := W2_of_ne m ρ c main_arg9 (by decide)
    _ = W0 m ρ c (Proc.devRef .tc main_arg9) := show StableHlo.after hostOps0 (W0 m ρ c) (Proc.devRef .tc main_arg9) = W0 m ρ c (Proc.devRef .tc main_arg9) from by after_results_simp

end Cert.KernelIdeal.FoldKeep

end
-- ==== Proof.LayoutCasts.lean ====
/-
  A vector cast to a column or to a row, read as a broadcast along the new unit axis.

  A length-`a` vector reshaped to the `[a, 1]` column holds at `(i, 0)` the vector's entry `i`; so does the
  vector broadcast into `[a, 1]` with its axis sent to axis 0. A length-`b` vector reshaped to the `[1, b]` row holds
  at `(0, j)` the vector's entry `j`; so does the vector broadcast into `[1, b]` with its axis sent to axis 1. Stated
  once for any element type and extent, then at the extents of the two programs.
-/
import proofs.«175076_j1116691497086_2_alg».proof.Proof.Gen.KernelIdeal
import proofs.«175076_j1116691497086_2_alg».proof.Proof.Gen.ReferenceIdeal
import Idealize.ShloMosaic.Lib.ValueIdx
import Idealize.ShloMosaic.Lib.Pipeline.Value

noncomputable section

namespace Cert.KernelIdeal.RegionValue

open Idealize.ShloMosaic Idealize.ShloMosaic.ValueIdx

/-- The reshape of a length-`a` vector to the column `[a, 1]` is its broadcast along axis 0: both hold the
    vector's entry `i` at `(i, 0)`. -/
theorem cast_col_eq_bcast {α : Type} {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨i, z, rfl⟩ : ∃ (i : Fin a) (z : Fin 1), j = ix2 i z := ⟨j 0, j 1, eq_ix2 j⟩
  have hz : z.val = 0 := by omega
  have hl : shapeCast ⟨2, ![a, 1]⟩ x h (ix2 i z) = x (ix1 i) :=
    shapeCast_apply x h (ix2 i z) (ix1 i) (by
      rw [Shape.rowMajor_val_one, Shape.rowMajor_val_two]
      show i.val = i.val * 1 + z.val
      rw [hz, Nat.mul_one, Nat.add_zero])
  rw [hl]
  refine (broadcastInDim_apply (![0] : Fin 1 → Fin 2) h' x (ix2 i z) (ix1 i) fun ax => ?_).symm
  match ax with
  | ⟨0, _⟩ =>
    show i.val = if a = 1 then 0 else i.val
    split
    · have := i.isLt; omega
    · rfl

/-- The reshape of a length-`b` vector to the row `[1, b]` is its broadcast along axis 1: both hold the
    vector's entry `j` at `(0, j)`. -/
theorem cast_row_eq_bcast {α : Type} {b : ℕ} (x : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ x h = broadcastInDim ⟨2, ![1, b]⟩ (![1] : Fin 1 → Fin 2) h' x := by
  funext j
  obtain ⟨z, i, rfl⟩ : ∃ (z : Fin 1) (i : Fin b), j = ix2 z i := ⟨j 0, j 1, eq_ix2 j⟩
  have hz : z.val = 0 := by omega
  have hl : shapeCast ⟨2, ![1, b]⟩ x h (ix2 z i) = x (ix1 i) :=
    shapeCast_apply x h (ix2 z i) (ix1 i) (by
      rw [Shape.rowMajor_val_one, Shape.rowMajor_val_two]
      show i.val = z.val * b + i.val
      rw [hz, Nat.zero_mul, Nat.zero_add])
  rw [hl]
  refine (broadcastInDim_apply (![1] : Fin 1 → Fin 2) h' x (ix2 z i) (ix1 i) fun ax => ?_).symm
  match ax with
  | ⟨0, _⟩ =>
    show i.val = if b = 1 then 0 else i.val
    split
    · have := i.isLt; omega
    · rfl

/-! ## At the extents of the two programs -/

theorem col_cast (v : FVec Ideal Cert.KernelIdeal.S100000 .f32) :
    shapeCast Cert.KernelIdeal.S100000x1 v Cert.KernelIdeal.Facts₀.shapeCasts_S100000_S100000x1
      = broadcastInDim Cert.ReferenceIdeal.S100000x1 ![0] Cert.ReferenceIdeal.Facts₀.bcast_S100000_S100000x1_0 v :=
  cast_col_eq_bcast v _ _

theorem row_cast256 (b : FVec Ideal Cert.KernelIdeal.S256 .f32) :
    shapeCast Cert.KernelIdeal.S1x256 b Cert.KernelIdeal.Facts₀.shapeCasts_S256_S1x256
      = broadcastInDim Cert.ReferenceIdeal.S1x256 ![1] Cert.ReferenceIdeal.Facts₀.bcast_S256_S1x256_1 b :=
  cast_row_eq_bcast b _ _

theorem row_cast128 (b : FVec Ideal Cert.KernelIdeal.S128 .f32) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b :=
  cast_row_eq_bcast b _ _

theorem row_cast64 (b : FVec Ideal Cert.KernelIdeal.S64 .f32) :
    shapeCast Cert.KernelIdeal.S1x64 b Cert.KernelIdeal.Facts₀.shapeCasts_S64_S1x64
      = broadcastInDim Cert.ReferenceIdeal.S1x64 ![1] Cert.ReferenceIdeal.Facts₀.bcast_S64_S1x64_1 b :=
  cast_row_eq_bcast b _ _

theorem row_cast1 (b : FVec Ideal Cert.KernelIdeal.S1 .f32) :
    shapeCast Cert.KernelIdeal.S1x1 b Cert.KernelIdeal.Facts₀.shapeCasts_S1_S1x1
      = broadcastInDim Cert.ReferenceIdeal.S1x1 ![1] Cert.ReferenceIdeal.Facts₀.bcast_S1_S1x1_1 b :=
  cast_row_eq_bcast b _ _

end Cert.KernelIdeal.RegionValue

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.MatmulRegion0.lean ====
/-
  Region 0: the tiled matrix product, as one whole-array product.

  The region multiplies a `[100000, 128]` array by a `[128, 256]` array in 10 blocks of 10000 rows: at grid point `t` it
  loads rows `10000 t … 10000 t + 9999` of the first operand and the whole second operand, and writes the block product
  to the same rows of the result. Entry `(p, q)` of a block product is the sum over the contracted coordinate `k` of
  `A (10000 t + p, k) * B (k, q)`, which is entry `(10000 t + p, q)` of the whole-array product; the 10 blocks tile the
  result (row `r` lies in block `r / 10000`), so after the pipeline the result array is the whole-array product.
-/
import proofs.«175076_j1116691497086_2_alg».proof.Proof.Gen.KernelIdeal.Frame
import proofs.«175076_j1116691497086_2_alg».proof.Proof.Gen.ReferenceIdeal
import proofs.«175076_j1116691497086_2_alg».proof.Proof.LibMatmulIx
import proofs.«175076_j1116691497086_2_alg».proof.Proof.LibHostDotIx
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The block product at an entry: the matrix product of the two loaded blocks, accumulated into zero, is at `(p, q)` the
    sum over the contracted coordinate of the products of the entries (narrowing the operands is the identity on the
    extended reals). -/
theorem mm0_pay_apply (x0 : Vec Ideal S10000x128 .f32) (x1 : Vec Ideal S128x256 .f32) (p : Fin 10000) (q : Fin 256) :
    k0_pay1 (F := Ideal) x0 x1 (ix2 p q) = ∑ k : Fin 128, x0 (ix2 p k) * x1 (ix2 k q) := by
  unfold k0_pay1
  exact Cert.LibMatmulIx.matmul_zero_apply dot_S10000x128_S128x256_S10000x256_1_0_0_1_n_n.wf none _ _ p q

/-- The index maps over the grid: the first operand and the result move with the grid point along the rows, the
    second operand stays at block 0. -/
theorem mm0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The zero offsets of a whole-block access, as the constant function. -/
theorem mm0_zero_off : (![0, 0] : Fin 2 → Nat) = fun _ => 0 := funext fun a => by fin_cases a <;> rfl

/-- The whole-array product of the two operand arrays. -/
abbrev mm0_prod (A : FVec Ideal Cert.ReferenceIdeal.S100000x128 .f32) (B : FVec Ideal Cert.ReferenceIdeal.S128x256 .f32) :
    FVec Ideal Cert.ReferenceIdeal.S100000x256 .f32 :=
  Host.dotGeneral (F := Ideal) Cert.ReferenceIdeal.dot_S100000x128_S128x256_S100000x256_1_0_0_1_n_n none A B

/-- What grid point `t` writes back is block `t` of the whole-array product of the operand arrays as the region finds
    them. -/
theorem mm0_flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (mm0_prod (V c main_arg0) (V c main_arg2)) := by
  show (cfg0.win 2).cut (grid0.coords t) ((dat0 V c).after 2 t) = _
  rw [after0_2]
  unfold out0_2
  rw [View.canon_unit_zero mm0_zero_off]
  simp only [View.ld_unit_zero (S := S10000x128) mm0_zero_off, View.ld_unit_zero (S := S128x256) mm0_zero_off]
  obtain ⟨e00, e01, e10, e11, e20, e21⟩ := mm0_idx_facts t
  have hN : cfg0.N = 10 := N_0
  have ht : t.val < 10 := hN ▸ t.isLt
  funext j
  obtain ⟨p, q, rfl⟩ : ∃ (p : Fin 10000) (q : Fin 256), j = ix2 p q := ⟨j 0, j 1, eq_ix2 (n0 := 10000) (n1 := 256) j⟩
  have hrow : t.val * 10000 + p.val < 100000 := by have := p.isLt; omega
  have hemb : ((cfg0.win 2).blk t).view.emb (ix2 p q) = (ix2 (⟨t.val * 10000 + p.val, hrow⟩ : Fin 100000) q : S100000x256.Idx) := by
    funext a; apply Fin.ext
    match a with
    | ⟨0, _⟩ => show win0_2.index t (0 : Fin 2) * 10000 + 1 * p.val = t.val * 10000 + p.val; rw [e20]; omega
    | ⟨1, _⟩ => show win0_2.index t (1 : Fin 2) * 256 + 1 * q.val = q.val; rw [e21]; omega
  show k0_pay1 (F := Ideal) (iblk0 V c 0 t) (iblk0 V c 1 t) (ix2 p q)
    = mm0_prod (V c main_arg0) (V c main_arg2) (((cfg0.win 2).blk t).view.emb (ix2 p q))
  rw [hemb]
  refine (mm0_pay_apply _ _ p q).trans ?_
  refine Eq.trans ?_ (Cert.LibHostDotIx.dotGeneral_apply
    Cert.ReferenceIdeal.dot_S100000x128_S128x256_S100000x256_1_0_0_1_n_n.wf none _ _ ⟨t.val * 10000 + p.val, hrow⟩ q).symm
  refine Finset.sum_congr rfl fun k _ => ?_
  have h0 : iblk0 V c 0 t (ix2 p k) = (V c main_arg0 : FVec Ideal S100000x128 .f32) (ix2 (⟨t.val * 10000 + p.val, hrow⟩ : Fin 100000) k) := by
    show (V c main_arg0 : FVec Ideal S100000x128 .f32) (((cfg0.win 0).blk t).view.emb (ix2 p k)) = _
    refine congrArg _ (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  have h1 : iblk0 V c 1 t (ix2 k q) = (V c main_arg2 : FVec Ideal S128x256 .f32) (ix2 k q) := by
    show (V c main_arg2 : FVec Ideal S128x256 .f32) (((cfg0.win 1).blk t).view.emb (ix2 k q)) = _
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 256 + 1 * q.val = q.val; rw [e11]; omega
  rw [h0, h1]

/-- An index of the result array is in point `t`'s block iff each coordinate is in the block's range on its axis. -/
theorem mm0_mem_blk (t : Fin cfg0.N) (i : S100000x256.Idx) :
    i ∈ ((cfg0.win 2).blk t).view.set ↔ ∀ a : Fin 2, win0_2.index t a * S10000x256.size a ≤ (i a).val
      ∧ (i a).val < win0_2.index t a * S10000x256.size a + S10000x256.size a := by
  show i ∈ ((View.whole main_v13).slice (win0_2.rect t)).set ↔ _
  rw [View.set_slice_whole, Rect.mem_set_unit]
  exact Iff.rfl

/-- The result's blocks tile the array: row `r` is in the block of point `r / 10000`. -/
theorem mm0_cover (i : S100000x256.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 256 := (i 1).isLt
  have htlt : (i 0).val / 10000 < cfg0.N := by rw [hN]; omega
  refine ⟨⟨(i 0).val / 10000, htlt⟩, flush0_2 _, ?_⟩
  obtain ⟨e00, e01, e10, e11, e20, e21⟩ := mm0_idx_facts ⟨(i 0).val / 10000, htlt⟩
  rw [mm0_mem_blk]
  intro a
  match a with
  | ⟨0, _⟩ =>
    show win0_2.index ⟨(i 0).val / 10000, htlt⟩ (0 : Fin 2) * 10000 ≤ (i 0).val
      ∧ (i 0).val < win0_2.index ⟨(i 0).val / 10000, htlt⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, htlt⟩ (1 : Fin 2) * 256 ≤ (i 1).val
      ∧ (i 1).val < win0_2.index ⟨(i 0).val / 10000, htlt⟩ (1 : Fin 2) * 256 + 256
    rw [e21]; omega

/-- The result array after the whole pipeline is the product of the two operand arrays as the region finds them. -/
theorem region0_out (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x128_S128x256_S100000x256_1_0_0_1_n_n none
          (V c main_arg0) (V c main_arg2) :=
  (dat0 (F := Ideal) V c).arrAt_eq_of_cover 2 (mm0_prod (V c main_arg0) (V c main_arg2)) (fun t _ => mm0_flushed_eq V c t) mm0_cover

end Cert.KernelIdeal.RegionValue

end
-- ==== Proof.MatmulRegion2.lean ====
/-
  Region 2: the tiled matrix product, as one whole-array product.

  The region multiplies a `[100000, 256]` array by a `[256, 128]` array in 10 blocks of 10000 rows: at grid point `t` it
  loads rows `10000 t … 10000 t + 9999` of the first operand and the whole second operand, and writes the block product
  to the same rows of the result. Entry `(p, q)` of a block product is the sum over the contracted coordinate `k` of
  `A (10000 t + p, k) * B (k, q)`, which is entry `(10000 t + p, q)` of the whole-array product; the 10 blocks tile the
  result (row `r` lies in block `r / 10000`), so after the pipeline the result array is the whole-array product.
-/
import proofs.«175076_j1116691497086_2_alg».proof.Proof.Gen.KernelIdeal.Frame
import proofs.«175076_j1116691497086_2_alg».proof.Proof.Gen.ReferenceIdeal
import proofs.«175076_j1116691497086_2_alg».proof.Proof.LibMatmulIx
import proofs.«175076_j1116691497086_2_alg».proof.Proof.LibHostDotIx
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The block product at an entry: the matrix product of the two loaded blocks, accumulated into zero, is at `(p, q)` the
    sum over the contracted coordinate of the products of the entries (narrowing the operands is the identity on the
    extended reals, and so is the cast of a shape to itself). -/
theorem mm2_pay_apply (x0 : Vec Ideal S10000x256 .f32) (x1 : Vec Ideal S256x128 .f32) (p : Fin 10000) (q : Fin 128) :
    k2_pay1 (F := Ideal) x0 x1 (ix2 p q) = ∑ k : Fin 256, x0 (ix2 p k) * x1 (ix2 k q) := by
  unfold k2_pay1
  simp only [shapeCast_self]
  exact Cert.LibMatmulIx.matmul_zero_apply dot_S10000x256_S256x128_S10000x128_1_0_0_1_n_n.wf none _ _ p q

/-- The index maps over the grid: the first operand and the result move with the grid point along the rows, the
    second operand stays at block 0. -/
theorem mm2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The zero offsets of a whole-block access, as the constant function. -/
theorem mm2_zero_off : (![0, 0] : Fin 2 → Nat) = fun _ => 0 := funext fun a => by fin_cases a <;> rfl

/-- The whole-array product of the two operand arrays. -/
abbrev mm2_prod (A : FVec Ideal Cert.ReferenceIdeal.S100000x256 .f32) (B : FVec Ideal Cert.ReferenceIdeal.S256x128 .f32) :
    FVec Ideal Cert.ReferenceIdeal.S100000x128 .f32 :=
  Host.dotGeneral (F := Ideal) Cert.ReferenceIdeal.dot_S100000x256_S256x128_S100000x128_1_0_0_1_n_n none A B

/-- What grid point `t` writes back is block `t` of the whole-array product of the operand arrays as the region finds
    them. -/
theorem mm2_flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (mm2_prod (V c main_v43) (V c main_arg4)) := by
  show (cfg2.win 2).cut (grid2.coords t) ((dat2 V c).after 2 t) = _
  rw [after2_2]
  unfold out2_2
  rw [View.canon_unit_zero mm2_zero_off]
  simp only [View.ld_unit_zero (S := S10000x256) mm2_zero_off, View.ld_unit_zero (S := S256x128) mm2_zero_off]
  obtain ⟨e00, e01, e10, e11, e20, e21⟩ := mm2_idx_facts t
  have hN : cfg2.N = 10 := N_2
  have ht : t.val < 10 := hN ▸ t.isLt
  funext j
  obtain ⟨p, q, rfl⟩ : ∃ (p : Fin 10000) (q : Fin 128), j = ix2 p q := ⟨j 0, j 1, eq_ix2 (n0 := 10000) (n1 := 128) j⟩
  have hrow : t.val * 10000 + p.val < 100000 := by have := p.isLt; omega
  have hemb : ((cfg2.win 2).blk t).view.emb (ix2 p q) = (ix2 (⟨t.val * 10000 + p.val, hrow⟩ : Fin 100000) q : S100000x128.Idx) := by
    funext a; apply Fin.ext
    match a with
    | ⟨0, _⟩ => show win2_2.index t (0 : Fin 2) * 10000 + 1 * p.val = t.val * 10000 + p.val; rw [e20]; omega
    | ⟨1, _⟩ => show win2_2.index t (1 : Fin 2) * 128 + 1 * q.val = q.val; rw [e21]; omega
  show k2_pay1 (F := Ideal) (iblk2 V c 0 t) (iblk2 V c 1 t) (ix2 p q)
    = mm2_prod (V c main_v43) (V c main_arg4) (((cfg2.win 2).blk t).view.emb (ix2 p q))
  rw [hemb]
  refine (mm2_pay_apply _ _ p q).trans ?_
  refine Eq.trans ?_ (Cert.LibHostDotIx.dotGeneral_apply
    Cert.ReferenceIdeal.dot_S100000x256_S256x128_S100000x128_1_0_0_1_n_n.wf none _ _ ⟨t.val * 10000 + p.val, hrow⟩ q).symm
  refine Finset.sum_congr rfl fun k _ => ?_
  have h0 : iblk2 V c 0 t (ix2 p k) = (V c main_v43 : FVec Ideal S100000x256 .f32) (ix2 (⟨t.val * 10000 + p.val, hrow⟩ : Fin 100000) k) := by
    show (V c main_v43 : FVec Ideal S100000x256 .f32) (((cfg2.win 0).blk t).view.emb (ix2 p k)) = _
    refine congrArg _ (funext fun a => Fin.ext ?_)
    match a with
    | ⟨0, _⟩ => show win2_0.index t (0 : Fin 2) * 10000 + 1 * p.val = t.val * 10000 + p.val; rw [e00]; omega
    | ⟨1, _⟩ => show win2_0.index t (1 : Fin 2) * 256 + 1 * k.val = k.val; rw [e01]; omega
  have h1 : iblk2 V c 1 t (ix2 k q) = (V c main_arg4 : FVec Ideal S256x128 .f32) (ix2 k q) := by
    show (V c main_arg4 : FVec Ideal S256x128 .f32) (((cfg2.win 1).blk t).view.emb (ix2 k q)) = _
    refine congrArg _ (funext fun a => Fin.ext ?_)
    match a with
    | ⟨0, _⟩ => show win2_1.index t (0 : Fin 2) * 256 + 1 * k.val = k.val; rw [e10]; omega
    | ⟨1, _⟩ => show win2_1.index t (1 : Fin 2) * 128 + 1 * q.val = q.val; rw [e11]; omega
  rw [h0, h1]

/-- An index of the result array is in point `t`'s block iff each coordinate is in the block's range on its axis. -/
theorem mm2_mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v44).slice (win2_2.rect t)).set ↔ _
  rw [View.set_slice_whole, Rect.mem_set_unit]
  exact Iff.rfl

/-- The result's blocks tile the array: row `r` is in the block of point `r / 10000`. -/
theorem mm2_cover (i : S100000x128.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 128 := (i 1).isLt
  have htlt : (i 0).val / 10000 < cfg2.N := by rw [hN]; omega
  refine ⟨⟨(i 0).val / 10000, htlt⟩, flush2_2 _, ?_⟩
  obtain ⟨e00, e01, e10, e11, e20, e21⟩ := mm2_idx_facts ⟨(i 0).val / 10000, htlt⟩
  rw [mm2_mem_blk]
  intro a
  match a with
  | ⟨0, _⟩ =>
    show win2_2.index ⟨(i 0).val / 10000, htlt⟩ (0 : Fin 2) * 10000 ≤ (i 0).val
      ∧ (i 0).val < win2_2.index ⟨(i 0).val / 10000, htlt⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, htlt⟩ (1 : Fin 2) * 128 ≤ (i 1).val
      ∧ (i 1).val < win2_2.index ⟨(i 0).val / 10000, htlt⟩ (1 : Fin 2) * 128 + 128
    rw [e21]; omega

/-- The result array after the whole pipeline is the product of the two operand arrays as the region finds them. -/
theorem region2_out (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S100000x256_S256x128_S100000x128_1_0_0_1_n_n none
          (V c main_v43) (V c main_arg4) :=
  (dat2 (F := Ideal) V c).arrAt_eq_of_cover 2 (mm2_prod (V c main_v43) (V c main_arg4)) (fun t _ => mm2_flushed_eq V c t) mm2_cover

end Cert.KernelIdeal.RegionValue

end
-- ==== Proof.MatmulRegion4.lean ====
/-
  Region 4: the tiled matrix product, as one whole-array product.

  The region multiplies a `[100000, 128]` array by a `[128, 64]` array in 10 blocks of 10000 rows: at grid point `t` it
  loads rows `10000 t … 10000 t + 9999` of the first operand and the whole second operand, and writes the block product
  to the same rows of the result. Entry `(p, q)` of a block product is the sum over the contracted coordinate `k` of
  `A (10000 t + p, k) * B (k, q)`, which is entry `(10000 t + p, q)` of the whole-array product; the 10 blocks tile the
  result (row `r` lies in block `r / 10000`), so after the pipeline the result array is the whole-array product.
-/
import proofs.«175076_j1116691497086_2_alg».proof.Proof.Gen.KernelIdeal.Frame
import proofs.«175076_j1116691497086_2_alg».proof.Proof.Gen.ReferenceIdeal
import proofs.«175076_j1116691497086_2_alg».proof.Proof.LibMatmulIx
import proofs.«175076_j1116691497086_2_alg».proof.Proof.LibHostDotIx
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The block product at an entry: the matrix product of the two loaded blocks, accumulated into zero, is at `(p, q)` the
    sum over the contracted coordinate of the products of the entries (narrowing the operands is the identity on the
    extended reals, and so is the cast of a shape to itself). -/
theorem mm4_pay_apply (x0 : Vec Ideal S10000x128 .f32) (x1 : Vec Ideal S128x64 .f32) (p : Fin 10000) (q : Fin 64) :
    k4_pay1 (F := Ideal) x0 x1 (ix2 p q) = ∑ k : Fin 128, x0 (ix2 p k) * x1 (ix2 k q) := by
  unfold k4_pay1
  simp only [shapeCast_self]
  exact Cert.LibMatmulIx.matmul_zero_apply dot_S10000x128_S128x64_S10000x64_1_0_0_1_n_n.wf none _ _ p q

/-- The index maps over the grid: the first operand and the result move with the grid point along the rows, the
    second operand stays at block 0. -/
theorem mm4_idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The zero offsets of a whole-block access, as the constant function. -/
theorem mm4_zero_off : (![0, 0] : Fin 2 → Nat) = fun _ => 0 := funext fun a => by fin_cases a <;> rfl

/-- The whole-array product of the two operand arrays. -/
abbrev mm4_prod (A : FVec Ideal Cert.ReferenceIdeal.S100000x128 .f32) (B : FVec Ideal Cert.ReferenceIdeal.S128x64 .f32) :
    FVec Ideal Cert.ReferenceIdeal.S100000x64 .f32 :=
  Host.dotGeneral (F := Ideal) Cert.ReferenceIdeal.dot_S100000x128_S128x64_S100000x64_1_0_0_1_n_n none A B

/-- What grid point `t` writes back is block `t` of the whole-array product of the operand arrays as the region finds
    them. -/
theorem mm4_flushed_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (mm4_prod (V c main_v74) (V c main_arg6)) := by
  show (cfg4.win 2).cut (grid4.coords t) ((dat4 V c).after 2 t) = _
  rw [after4_2]
  unfold out4_2
  rw [View.canon_unit_zero mm4_zero_off]
  simp only [View.ld_unit_zero (S := S10000x128) mm4_zero_off, View.ld_unit_zero (S := S128x64) mm4_zero_off]
  obtain ⟨e00, e01, e10, e11, e20, e21⟩ := mm4_idx_facts t
  have hN : cfg4.N = 10 := N_4
  have ht : t.val < 10 := hN ▸ t.isLt
  funext j
  obtain ⟨p, q, rfl⟩ : ∃ (p : Fin 10000) (q : Fin 64), j = ix2 p q := ⟨j 0, j 1, eq_ix2 (n0 := 10000) (n1 := 64) j⟩
  have hrow : t.val * 10000 + p.val < 100000 := by have := p.isLt; omega
  have hemb : ((cfg4.win 2).blk t).view.emb (ix2 p q) = (ix2 (⟨t.val * 10000 + p.val, hrow⟩ : Fin 100000) q : S100000x64.Idx) := by
    funext a; apply Fin.ext
    match a with
    | ⟨0, _⟩ => show win4_2.index t (0 : Fin 2) * 10000 + 1 * p.val = t.val * 10000 + p.val; rw [e20]; omega
    | ⟨1, _⟩ => show win4_2.index t (1 : Fin 2) * 64 + 1 * q.val = q.val; rw [e21]; omega
  show k4_pay1 (F := Ideal) (iblk4 V c 0 t) (iblk4 V c 1 t) (ix2 p q)
    = mm4_prod (V c main_v74) (V c main_arg6) (((cfg4.win 2).blk t).view.emb (ix2 p q))
  rw [hemb]
  refine (mm4_pay_apply _ _ p q).trans ?_
  refine Eq.trans ?_ (Cert.LibHostDotIx.dotGeneral_apply
    Cert.ReferenceIdeal.dot_S100000x128_S128x64_S100000x64_1_0_0_1_n_n.wf none _ _ ⟨t.val * 10000 + p.val, hrow⟩ q).symm
  refine Finset.sum_congr rfl fun k _ => ?_
  have h0 : iblk4 V c 0 t (ix2 p k) = (V c main_v74 : FVec Ideal S100000x128 .f32) (ix2 (⟨t.val * 10000 + p.val, hrow⟩ : Fin 100000) k) := by
    show (V c main_v74 : FVec Ideal S100000x128 .f32) (((cfg4.win 0).blk t).view.emb (ix2 p k)) = _
    refine congrArg _ (funext fun a => Fin.ext ?_)
    match a with
    | ⟨0, _⟩ => show win4_0.index t (0 : Fin 2) * 10000 + 1 * p.val = t.val * 10000 + p.val; rw [e00]; omega
    | ⟨1, _⟩ => show win4_0.index t (1 : Fin 2) * 128 + 1 * k.val = k.val; rw [e01]; omega
  have h1 : iblk4 V c 1 t (ix2 k q) = (V c main_arg6 : FVec Ideal S128x64 .f32) (ix2 k q) := by
    show (V c main_arg6 : FVec Ideal S128x64 .f32) (((cfg4.win 1).blk t).view.emb (ix2 k q)) = _
    refine congrArg _ (funext fun a => Fin.ext ?_)
    match a with
    | ⟨0, _⟩ => show win4_1.index t (0 : Fin 2) * 128 + 1 * k.val = k.val; rw [e10]; omega
    | ⟨1, _⟩ => show win4_1.index t (1 : Fin 2) * 64 + 1 * q.val = q.val; rw [e11]; omega
  rw [h0, h1]

/-- An index of the result array is in point `t`'s block iff each coordinate is in the block's range on its axis. -/
theorem mm4_mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v75).slice (win4_2.rect t)).set ↔ _
  rw [View.set_slice_whole, Rect.mem_set_unit]
  exact Iff.rfl

/-- The result's blocks tile the array: row `r` is in the block of point `r / 10000`. -/
theorem mm4_cover (i : S100000x64.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 64 := (i 1).isLt
  have htlt : (i 0).val / 10000 < cfg4.N := by rw [hN]; omega
  refine ⟨⟨(i 0).val / 10000, htlt⟩, flush4_2 _, ?_⟩
  obtain ⟨e00, e01, e10, e11, e20, e21⟩ := mm4_idx_facts ⟨(i 0).val / 10000, htlt⟩
  rw [mm4_mem_blk]
  intro a
  match a with
  | ⟨0, _⟩ =>
    show win4_2.index ⟨(i 0).val / 10000, htlt⟩ (0 : Fin 2) * 10000 ≤ (i 0).val
      ∧ (i 0).val < win4_2.index ⟨(i 0).val / 10000, htlt⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, htlt⟩ (1 : Fin 2) * 64 ≤ (i 1).val
      ∧ (i 1).val < win4_2.index ⟨(i 0).val / 10000, htlt⟩ (1 : Fin 2) * 64 + 64
    rw [e21]; omega

/-- The result array after the whole pipeline is the product of the two operand arrays as the region finds them. -/
theorem region4_out (V : (c : Dev nD) → (b : Ref sig .tc) → Buf (Elt Ideal) ((c : Thread nD τ).loc b)) (c : Dev nD) :
    (dat4 (F := Ideal) V c).arrAt 2 cfg4.N
      = Host.dotGeneral (F := Ideal) (φ₁ := .f32) (φ₂ := .f32) Cert.ReferenceIdeal.dot_S100000x128_S128x64_S100000x64_1_0_0_1_n_n none
          (V c main_v74) (V c main_arg6) :=
  (dat4 (F := Ideal) V c).arrAt_eq_of_cover 2 (mm4_prod (V c main_v74) (V c main_arg6)) (fun t _ => mm4_flushed_eq V c t) mm4_cover

end Cert.KernelIdeal.RegionValue

end
-- ==== Proof.MatmulRegion6.lean ====
/-
  Region 6: the tiled matrix product, as one whole-array product.

  The region multiplies a `[100000, 64]` array by a `[64, 1]` array in 10 blocks of 10000 rows: at grid point `t` it
  loads rows `10000 t … 10000 t + 9999` of the first operand and the whole second operand, and writes the block product
  to the same rows of the result. Entry `(p, q)` of a block product is the sum over the contracted coordinate `k` of
  `A (10000 t + p, k) * B (k, q)`, which is entry `(10000 t + p, q)` of the whole-array product; the 10 blocks tile the
  result (row `r` lies in block `r / 10000`), so after the pipeline the result array is the whole-array product.
-/
import proofs.«175076_j1116691497086_2_alg».proof.Proof.Gen.KernelIdeal.Frame
import proofs.«175076_j1116691497086_2_alg».proof.Proof.Gen.ReferenceIdeal
import proofs.«175076_j1116691497086_2_alg».proof.Proof.LibMatmulIx
import proofs.«175076_j1116691497086_2_alg».proof.Proof.LibHostDotIx
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The block product at an entry: the matrix product of the two loaded blocks, accumulated into zero, is at `(p, q)` the
    sum over the contracted coordinate of the products of the entries (narrowing the operands is the identity on the
    extended reals, and so is the cast of a shape to itself). -/
theorem mm6_pay_apply (x0 : Vec Ideal S10000x64 .f32) (x1 : Vec Ideal S64x1 .f32) (p : Fin 10000) (q : Fin 1) :
    k6_pay1 (F := Ideal) x0 x1 (ix2 p q) = ∑ k : Fin 64, x0 (ix2 p k) * x1 (ix2 k q) := by
  unfold k6_pay1
  simp only [shapeCast_self]
  exact Cert.LibMatmulIx.matmul_zero_apply dot_S10000x64_S64x1_S10000x1_1_0_0_1_n_n.wf none _ _ p q

/-- The index maps over the grid: the first operand and the result move with the grid point along the rows, the
    second operand stays at block 0. -/
theorem mm6_idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The zero offsets of a whole-block access, as the constant function. -/
theorem mm6_zero_off : (![0, 0] : Fin 2 → Nat) = fun _ => 0 := funext fun a => by fin_cases a <;> rfl

/-- The whole-array product of the two operand arrays. -/
abbrev mm6_prod (A : FVec Ideal Cert.ReferenceIdeal.S100000x64 .f32) (B : FVec Ideal Cert.ReferenceIdeal.S64x1 .f32) :
    FVec Ideal Cert.ReferenceIdeal.S100000x1 .f32 :=
  Host.dotGeneral (F := Ideal) Cert.ReferenceIdeal.dot_S100000x64_S64x1_S100000x1_1_0_0_1_n_n none A B

/-- What grid point `t` writes back is block `t` of the whole-array product of the operand arrays as the region finds
    them. -/
theorem mm6_flushed_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (mm6_prod (V c main_v105) (V c main_arg8)) := by
  show (cfg6.win 2).cut (grid6.coords t) ((dat6 V c).after 2 t) = _
  rw [after6_2]
  unfold out6_2
  rw [View.canon_unit_zero mm6_zero_off]
  simp only [View.ld_unit_zero (S := S10000x64) mm6_zero_off, View.ld_unit_zero (S := S64x1) mm6_zero_off]
  obtain ⟨e00, e01, e10, e11, e20, e21⟩ := mm6_idx_facts t
  have hN : cfg6.N = 10 := N_6
  have ht : t.val < 10 := hN ▸ t.isLt
  funext j
  obtain ⟨p, q, rfl⟩ : ∃ (p : Fin 10000) (q : Fin 1), j = ix2 p q := ⟨j 0, j 1, eq_ix2 (n0 := 10000) (n1 := 1) j⟩
  have hrow : t.val * 10000 + p.val < 100000 := by have := p.isLt; omega
  have hemb : ((cfg6.win 2).blk t).view.emb (ix2 p q) = (ix2 (⟨t.val * 10000 + p.val, hrow⟩ : Fin 100000) q : S100000x1.Idx) := by
    funext a; apply Fin.ext
    match a with
    | ⟨0, _⟩ => show win6_2.index t (0 : Fin 2) * 10000 + 1 * p.val = t.val * 10000 + p.val; rw [e20]; omega
    | ⟨1, _⟩ => show win6_2.index t (1 : Fin 2) * 1 + 1 * q.val = q.val; rw [e21]; omega
  show k6_pay1 (F := Ideal) (iblk6 V c 0 t) (iblk6 V c 1 t) (ix2 p q)
    = mm6_prod (V c main_v105) (V c main_arg8) (((cfg6.win 2).blk t).view.emb (ix2 p q))
  rw [hemb]
  refine (mm6_pay_apply _ _ p q).trans ?_
  refine Eq.trans ?_ (Cert.LibHostDotIx.dotGeneral_apply
    Cert.ReferenceIdeal.dot_S100000x64_S64x1_S100000x1_1_0_0_1_n_n.wf none _ _ ⟨t.val * 10000 + p.val, hrow⟩ q).symm
  refine Finset.sum_congr rfl fun k _ => ?_
  have h0 : iblk6 V c 0 t (ix2 p k) = (V c main_v105 : FVec Ideal S100000x64 .f32) (ix2 (⟨t.val * 10000 + p.val, hrow⟩ : Fin 100000) k) := by
    show (V c main_v105 : FVec Ideal S100000x64 .f32) (((cfg6.win 0).blk t).view.emb (ix2 p k)) = _
    refine congrArg _ (funext fun a => Fin.ext ?_)
    match a with
    | ⟨0, _⟩ => show win6_0.index t (0 : Fin 2) * 10000 + 1 * p.val = t.val * 10000 + p.val; rw [e00]; omega
    | ⟨1, _⟩ => show win6_0.index t (1 : Fin 2) * 64 + 1 * k.val = k.val; rw [e01]; omega
  have h1 : iblk6 V c 1 t (ix2 k q) = (V c main_arg8 : FVec Ideal S64x1 .f32) (ix2 k q) := by
    show (V c main_arg8 : FVec Ideal S64x1 .f32) (((cfg6.win 1).blk t).view.emb (ix2 k q)) = _
    refine congrArg _ (funext fun a => Fin.ext ?_)
    match a with
    | ⟨0, _⟩ => show win6_1.index t (0 : Fin 2) * 64 + 1 * k.val = k.val; rw [e10]; omega
    | ⟨1, _⟩ => show win6_1.index t (1 : Fin 2) * 1 + 1 * q.val = q.val; rw [e11]; omega
  rw [h0, h1]

/-- An index of the result array is in point `t`'s block iff each coordinate is in the block's range on its axis. -/
theorem mm6_mem_blk (t : Fin cfg6.N) (i : S100000x1.Idx) :
    i ∈ ((cfg6.win 2).blk t).view.set ↔ ∀ a : Fin 2, win6_2.index t a * S10000x1.size a ≤ (i a).val
      ∧ (i a).val < win6_2.index t a * S10000x1.size a + S10000x1.size a := by
  show i ∈ ((View.whole main_v106).slice (win6_2.rect t)).set ↔ _
  rw [View.set_slice_whole, Rect.mem_set_unit]
  exact Iff.rfl

/-- The result's blocks tile the array: row `r` is in the block of point `r / 10000`. -/
theorem mm6_cover (i : S100000x1.Idx) :
    ∃ t : Fin cfg6.N, (cfg6.win 2).flush t = true ∧ i ∈ ((cfg6.win 2).blk t).view.set := by
  have hN : cfg6.N = 10 := N_6
  have hi0 : (i 0).val < 100000 := (i 0).isLt
  have hi1 : (i 1).val < 1 := (i 1).isLt
  have htlt : (i 0).val / 10000 < cfg6.N := by rw [hN]; omega
  refine ⟨⟨(i 0).val / 10000, htlt⟩, flush6_2 _, ?_⟩
  obtain ⟨e00, e01, e10, e11, e20, e21⟩ := mm6_idx_facts ⟨(i 0).val / 10000, htlt⟩
  rw [mm6_mem_blk]
  intro a
  match a with
  | ⟨0, _⟩ =>
    show win6_2.index ⟨(i 0).val / 10000, htlt⟩ (0 : Fin 2) * 10000 ≤ (i 0).val
      ∧ (i 0).val < win6_2.index ⟨(i 0).val / 10000, htlt⟩ (0 : Fin 2) * 10000 + 10000
    rw [e20]; show (i 0).val / 10000 * 10000 ≤ (i 0).val ∧ (i 0).val < (i 0).val / 10000 * 10000 + 10000; omega
  | ⟨1, _⟩ =>
    show win6_2.index ⟨(i 0).val / 10000, htlt⟩ (1 : Fin 2) * 1 ≤ (i 1).val
      ∧ (i 1).val < win6_2.index ⟨(i 0).val / 10000, htlt⟩ (1 : Fin 2) * 1 + 1
    rw [e21]; omega

/-- The result array after the whole pipeline is the product of the two operand arrays as the region finds them. -/
theorem region6_out (V : (c : Dev nD) → (b : Ref sig .tc) → Buf (Elt Ideal) ((c : Thread nD τ).loc b)) (c : Dev nD) :
    (dat6 (F := Ideal) V c).arrAt 2 cfg6.N
      = Host.dotGeneral (F := Ideal) (φ₁ := .f32) (φ₂ := .f32) Cert.ReferenceIdeal.dot_S100000x64_S64x1_S100000x1_1_0_0_1_n_n none
          (V c main_v105) (V c main_arg8) :=
  (dat6 (F := Ideal) V c).arrAt_eq_of_cover 2 (mm6_prod (V c main_v105) (V c main_arg8)) (fun t _ => mm6_flushed_eq V c t) mm6_cover

end Cert.KernelIdeal.RegionValue

end
-- ==== Proof.LibColumn.lean ====
/-
  Two readings of the "keep the reduced axis" column forms. A vector of length `a` cast to an `[a, 1]` column holds,
  at `(i, 0)`, the vector's entry `i`; an `[a, 1]` column broadcast to `[a, b]` holds, at `(i, j)`, the column's entry
  of row `i`. Stated for any element type and any extents, at explicit coordinates.
-/
import Idealize.ShloMosaic.Lib.ValueIdx
import Idealize.ShloMosaic.Lib.Pipeline.Value
import Idealize.ShloMosaic.Lib.ValueLayout

noncomputable section

namespace Cert.LibColumn

open Idealize.ShloMosaic Idealize.ShloMosaic.ValueIdx

/-- An `[a]` array cast to the column `[a, 1]` reads, at `(i, z)`, the operand at `i`, whatever the unit coordinate `z`. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- An `[a, 1]` column broadcast to `[a, b]` reads, at `(i, j)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn

end
-- ==== Proof.CombineRegion1.lean ====
/-
  The first combine region: the output array after the whole pipeline, as one function of the arrays the region
  finds. Every block of the output is the restriction of one whole-array function — at `(a, q)`,
  `max ((agg (a, q) + col (a, 0) * xt (a, q)) + row (0, q)) 0` — and the fifty row blocks tile the array, so the array
  ends holding that function; read index by index it is the host expression
  `maximum (add (add agg (multiply (broadcast col) xt)) (broadcast row)) (broadcast 0)`.
-/
import proofs.«175076_j1116691497086_2_alg».proof.Proof.Gen.KernelIdeal.Frame
import proofs.«175076_j1116691497086_2_alg».proof.Proof.Gen.ReferenceIdeal
import proofs.«175076_j1116691497086_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

/-- The zero offsets of a whole-buffer access, spelt as the constant function. -/
theorem hz1 : (![0, 0] : Fin 2 → Nat) = fun _ => 0 := funext fun a => by fin_cases a <;> rfl

/-- The row of the `[100000, 1]` column that an index of the `[100000, 256]` array reads. -/
abbrev colIdx1 (i : S100000x256.Idx) : S100000x1.Idx := fun a => match a with
  | ⟨0, _⟩ => ⟨(i 0).val, (i 0).isLt⟩
  | ⟨1, _⟩ => ⟨0, Nat.one_pos⟩

/-- The entry of the `[1, 256]` row that an index of the `[100000, 256]` array reads. -/
abbrev rowIdx1 (i : S100000x256.Idx) : S1x256.Idx := fun a => match a with
  | ⟨0, _⟩ => ⟨0, Nat.one_pos⟩
  | ⟨1, _⟩ => ⟨(i 1).val, (i 1).isLt⟩

/-- The whole-array function every block of the output restricts: at `(a, q)`,
    `max ((agg (a, q) + col (a, 0) * xt (a, q)) + row (0, q)) 0`. -/
def G1 (agg xt : S100000x256.Idx → Elt Ideal .f32) (col : S100000x1.Idx → Elt Ideal .f32) (row : S1x256.Idx → Elt Ideal .f32) :
    S100000x256.Idx → Elt Ideal .f32 :=
  fun i => max ((agg i + col (colIdx1 i) * xt i) + row (rowIdx1 i)) (Ideal.ofBits .f32 0x00000000#32)

/-- The body's payload read at `(p, q)` of its block. -/
theorem pay1_apply (x0 : Vec Ideal S2000x256 .f32) (x2 : Vec Ideal S2000x1 .f32) (x4 : Vec Ideal S2000x256 .f32) (x9 : Vec Ideal S1x256 .f32)
    (p : Fin 2000) (q : Fin 256) :
    k1_pay1 x0 x2 x4 x9 (ix2 p q)
      = max ((x0 (ix2 p q) + x2 (ix2 p (0 : Fin 1)) * x4 (ix2 p q)) + x9 (ix2 (0 : Fin 1) q)) (Ideal.ofBits .f32 0x00000000#32) := by
  unfold k1_pay1
  simp only [shapeCast_self]
  rw [maximumf_apply, addf_apply, addf_apply, mulf_apply, broadcast_apply,
    Cert.LibColumn.broadcastTo_a1_ab_apply, broadcastTo_1b_ab_apply]
  rfl

/-- The printed index maps, decided once over the 50 grid points: the three row-blocked inputs and the output sit at
    block `t` of the rows and block 0 of the columns; the bias row is the whole array at every point. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The combined value read at equal indices is the same value. -/
theorem combine_congr1 (agg xt : FVec Ideal S100000x256 .f32) (col : FVec Ideal S100000x1 .f32) (row : FVec Ideal S1x256 .f32)
    (i0 i1 i4 : S100000x256.Idx) (i2 : S100000x1.Idx) (i3 : S1x256.Idx)
    (h0 : i0 = i4) (h1 : i1 = i4) (h2 : i2 = colIdx1 i4) (h3 : i3 = rowIdx1 i4) :
    max ((agg i0 + col i2 * xt i1) + row i3) (Ideal.ofBits .f32 0x00000000#32)
      = max ((agg i4 + col (colIdx1 i4) * xt i4) + row (rowIdx1 i4)) (Ideal.ofBits .f32 0x00000000#32) := by
  rw [h0, h1, h2, h3]

/-- What point `t` writes back is block `t` of `G1` of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (G1 (V c main_v41) (V c main_v13) (V c main_v12) (V c main_v42)) := by
  show (cfg1.win 4).cut (grid1.coords t) ((dat1 (F := Ideal) V c).after 4 t) = _
  rw [after1_4]
  unfold out1_4
  rw [View.canon_unit_zero hz1]
  simp only [View.ld_unit_zero (S := S2000x256) hz1, View.ld_unit_zero (S := S2000x1) hz1, View.ld_unit_zero (S := S1x256) hz1]
  obtain ⟨e00, e01, e10, e11, e20, e21, e30, e31, e40, e41⟩ := idx_facts1 t
  funext j
  obtain ⟨p, q, rfl⟩ : ∃ (p : Fin 2000) (q : Fin 256), j = ix2 p q := ⟨j 0, j 1, eq_ix2 j⟩
  show k1_pay1 (iblk1 V c 0 t) (iblk1 V c 2 t) (iblk1 V c 1 t) (iblk1 V c 3 t) (ix2 p q)
      = G1 (V c main_v41) (V c main_v13) (V c main_v12) (V c main_v42) (((cfg1.win 4).blk t).view.emb (ix2 p q))
  rw [pay1_apply]
  unfold G1
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * q.val = win1_4.index t (1 : Fin 2) * 256 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 256 + 1 * q.val = win1_4.index t (1 : Fin 2) * 256 + 1 * q.val; omega
  have h2 : ((cfg1.win 2).blk t).view.emb (ix2 p (0 : Fin 1)) = colIdx1 (((cfg1.win 4).blk t).view.emb (ix2 p q)) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q) = rowIdx1 (((cfg1.win 4).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega
  exact combine_congr1 (V c main_v41) (V c main_v13) (V c main_v12) (V c main_v42)
    (((cfg1.win 0).blk t).view.emb (ix2 p q)) (((cfg1.win 1).blk t).view.emb (ix2 p q)) (((cfg1.win 4).blk t).view.emb (ix2 p q))
    (((cfg1.win 2).blk t).view.emb (ix2 p (0 : Fin 1))) (((cfg1.win 3).blk t).view.emb (ix2 (0 : Fin 1) q)) h0 h1 h2 h3

/-- An index of the array is in point `t`'s block iff each coordinate is in the block's range on its axis. -/
theorem mem_blk1 (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v43).slice (win1_4.rect t)).set ↔ _
  rw [View.set_slice_whole, Rect.mem_set_unit]
  exact Iff.rfl

/-- Every index of the array is in the block of the point its row falls in: row `r` is in block `r / 2000`. -/
theorem cover1 (i : S100000x256.Idx) : ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  have ht : t.val = (i 0).val / 2000 := rfl
  obtain ⟨e00, e01, e10, e11, e20, e21, e30, e31, e40, e41⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The array after the run is `G1` of the arrays as the region finds them. -/
theorem final1 (V : (c : Dev nD) → (b : Ref sig .tc) → Buf (Elt Ideal) ((c : Thread nD τ).loc b)) (c : Dev nD) :
    (dat1 (F := Ideal) V c).arrAt 4 cfg1.N = G1 (V c main_v41) (V c main_v13) (V c main_v12) (V c main_v42) :=
  (dat1 (F := Ideal) V c).arrAt_eq_of_cover 4 _ (fun t _ => flushed1_eq V c t) cover1

/-- `G1` is the host expression: the pointwise operations read at an index, each `broadcast_in_dim` at the operand's index. -/
theorem G1_eq (agg xt : S100000x256.Idx → Elt Ideal .f32) (col : S100000x1.Idx → Elt Ideal .f32) (row : S1x256.Idx → Elt Ideal .f32) :
    G1 agg xt col row
      = maximumf (addf (addf agg (mulf (broadcastInDim Cert.ReferenceIdeal.S100000x256 ![0, 1] Cert.ReferenceIdeal.Gen.bcast_S100000x1_S100000x256_0_1 col) xt))
                       (broadcastInDim Cert.ReferenceIdeal.S100000x256 ![0, 1] Cert.ReferenceIdeal.Gen.bcast_S1x256_S100000x256_0_1 row))
                 (broadcastInDim Cert.ReferenceIdeal.S100000x256 ![] Cert.ReferenceIdeal.Gen.bcast_S_S100000x256 (constant (F := Ideal) Cert.ReferenceIdeal.S_ .f32 0x00000000#32)) := by
  funext i
  rw [maximumf_apply, addf_apply, addf_apply, mulf_apply]
  rw [broadcastInDim_apply _ Cert.ReferenceIdeal.Gen.bcast_S100000x1_S100000x256_0_1 col i (colIdx1 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x256_S100000x256_0_1 row i (rowIdx1 i) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)]),
    broadcastInDim_apply _ Cert.ReferenceIdeal.Gen.bcast_S_S100000x256 (constant (F := Ideal) Cert.ReferenceIdeal.S_ .f32 0x00000000#32) i (fun a => a.elim0) (fun a => a.elim0)]
  rfl

theorem region1_out (V : (c : Dev nD) → (b : Ref sig .tc) → Buf (Elt Ideal) ((c : Thread nD τ).loc b)) (c : Dev nD) :
    (dat1 (F := Ideal) V c).arrAt 4 cfg1.N
      = maximumf (addf (addf (V c main_v41) (mulf (broadcastInDim Cert.ReferenceIdeal.S100000x256 ![0, 1] Cert.ReferenceIdeal.Gen.bcast_S100000x1_S100000x256_0_1 (V c main_v12)) (V c main_v13)))
                       (broadcastInDim Cert.ReferenceIdeal.S100000x256 ![0, 1] Cert.ReferenceIdeal.Gen.bcast_S1x256_S100000x256_0_1 (V c main_v42)))
                 (broadcastInDim Cert.ReferenceIdeal.S100000x256 ![] Cert.ReferenceIdeal.Gen.bcast_S_S100000x256 (constant (F := Ideal) Cert.ReferenceIdeal.S_ .f32 0x00000000#32)) :=
  (final1 V c).trans (G1_eq _ _ _ _)

end Cert.KernelIdeal.RegionValue
end
-- ==== Proof.CombineRegion3.lean ====
/-
  The second combine region: the output array after the whole pipeline, as one function of the arrays the region
  finds. Every block of the output is the restriction of one whole-array function — at `(a, q)`,
  `max ((agg (a, q) + col (a, 0) * xt (a, q)) + row (0, q)) 0` — and the fifty row blocks tile the array, so the array
  ends holding that function; read index by index it is the host expression
  `maximum (add (add agg (multiply (broadcast col) xt)) (broadcast row)) (broadcast 0)`.
-/
import proofs.«175076_j1116691497086_2_alg».proof.Proof.Gen.KernelIdeal.Frame
import proofs.«175076_j1116691497086_2_alg».proof.Proof.Gen.ReferenceIdeal
import proofs.«175076_j1116691497086_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

/-- The zero offsets of a whole-buffer access, spelt as the constant function. -/
theorem hz3 : (![0, 0] : Fin 2 → Nat) = fun _ => 0 := funext fun a => by fin_cases a <;> rfl

/-- The row of the `[100000, 1]` column that an index of the `[100000, 128]` array reads. -/
abbrev colIdx3 (i : S100000x128.Idx) : S100000x1.Idx := fun a => match a with
  | ⟨0, _⟩ => ⟨(i 0).val, (i 0).isLt⟩
  | ⟨1, _⟩ => ⟨0, Nat.one_pos⟩

/-- The entry of the `[1, 128]` row that an index of the `[100000, 128]` array reads. -/
abbrev rowIdx3 (i : S100000x128.Idx) : S1x128.Idx := fun a => match a with
  | ⟨0, _⟩ => ⟨0, Nat.one_pos⟩
  | ⟨1, _⟩ => ⟨(i 1).val, (i 1).isLt⟩

/-- The whole-array function every block of the output restricts: at `(a, q)`,
    `max ((agg (a, q) + col (a, 0) * xt (a, q)) + row (0, q)) 0`. -/
def G3 (agg xt : S100000x128.Idx → Elt Ideal .f32) (col : S100000x1.Idx → Elt Ideal .f32) (row : S1x128.Idx → Elt Ideal .f32) :
    S100000x128.Idx → Elt Ideal .f32 :=
  fun i => max ((agg i + col (colIdx3 i) * xt i) + row (rowIdx3 i)) (Ideal.ofBits .f32 0x00000000#32)

/-- The body's payload read at `(p, q)` of its block. -/
theorem pay3_apply (x0 : Vec Ideal S2000x128 .f32) (x2 : Vec Ideal S2000x1 .f32) (x4 : Vec Ideal S2000x128 .f32) (x9 : Vec Ideal S1x128 .f32)
    (p : Fin 2000) (q : Fin 128) :
    k3_pay1 x0 x2 x4 x9 (ix2 p q)
      = max ((x0 (ix2 p q) + x2 (ix2 p (0 : Fin 1)) * x4 (ix2 p q)) + x9 (ix2 (0 : Fin 1) q)) (Ideal.ofBits .f32 0x00000000#32) := by
  unfold k3_pay1
  simp only [shapeCast_self]
  rw [maximumf_apply, addf_apply, addf_apply, mulf_apply, broadcast_apply,
    Cert.LibColumn.broadcastTo_a1_ab_apply, broadcastTo_1b_ab_apply]
  rfl

/-- The printed index maps, decided once over the 50 grid points: the three row-blocked inputs and the output sit at
    block `t` of the rows and block 0 of the columns; the bias row is the whole array at every point. -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The combined value read at equal indices is the same value. -/
theorem combine_congr3 (agg xt : FVec Ideal S100000x128 .f32) (col : FVec Ideal S100000x1 .f32) (row : FVec Ideal S1x128 .f32)
    (i0 i1 i4 : S100000x128.Idx) (i2 : S100000x1.Idx) (i3 : S1x128.Idx)
    (h0 : i0 = i4) (h1 : i1 = i4) (h2 : i2 = colIdx3 i4) (h3 : i3 = rowIdx3 i4) :
    max ((agg i0 + col i2 * xt i1) + row i3) (Ideal.ofBits .f32 0x00000000#32)
      = max ((agg i4 + col (colIdx3 i4) * xt i4) + row (rowIdx3 i4)) (Ideal.ofBits .f32 0x00000000#32) := by
  rw [h0, h1, h2, h3]

/-- What point `t` writes back is block `t` of `G3` of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal) (G3 (V c main_v72) (V c main_v44) (V c main_v12) (V c main_v73)) := by
  show (cfg3.win 4).cut (grid3.coords t) ((dat3 (F := Ideal) V c).after 4 t) = _
  rw [after3_4]
  unfold out3_4
  rw [View.canon_unit_zero hz3]
  simp only [View.ld_unit_zero (S := S2000x128) hz3, View.ld_unit_zero (S := S2000x1) hz3, View.ld_unit_zero (S := S1x128) hz3]
  obtain ⟨e00, e01, e10, e11, e20, e21, e30, e31, e40, e41⟩ := idx_facts3 t
  funext j
  obtain ⟨p, q, rfl⟩ : ∃ (p : Fin 2000) (q : Fin 128), j = ix2 p q := ⟨j 0, j 1, eq_ix2 j⟩
  show k3_pay1 (iblk3 V c 0 t) (iblk3 V c 2 t) (iblk3 V c 1 t) (iblk3 V c 3 t) (ix2 p q)
      = G3 (V c main_v72) (V c main_v44) (V c main_v12) (V c main_v73) (((cfg3.win 4).blk t).view.emb (ix2 p q))
  rw [pay3_apply]
  unfold G3
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1)) = colIdx3 (((cfg3.win 4).blk t).view.emb (ix2 p q)) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q) = rowIdx3 (((cfg3.win 4).blk t).view.emb (ix2 p q)) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  exact combine_congr3 (V c main_v72) (V c main_v44) (V c main_v12) (V c main_v73)
    (((cfg3.win 0).blk t).view.emb (ix2 p q)) (((cfg3.win 1).blk t).view.emb (ix2 p q)) (((cfg3.win 4).blk t).view.emb (ix2 p q))
    (((cfg3.win 2).blk t).view.emb (ix2 p (0 : Fin 1))) (((cfg3.win 3).blk t).view.emb (ix2 (0 : Fin 1) q)) h0 h1 h2 h3

/-- An index of the array is in point `t`'s block iff each coordinate is in the block's range on its axis. -/
theorem mem_blk3 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v74).slice (win3_4.rect t)).set ↔ _
  rw [View.set_slice_whole, Rect.mem_set_unit]
  exact Iff.rfl

/-- Every index of the array is in the block of the point its row falls in: row `r` is in block `r / 2000`. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 50 := N_3
  let t : Fin cfg3.N := ⟨(i 0).val / 2000, by rw [hN]; omega⟩
  have ht : t.val = (i 0).val / 2000 := rfl
  obtain ⟨e00, e01, e10, e11, e20, e21, e30, e31, e40, e41⟩ := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The array after the run is `G3` of the arrays as the region finds them. -/
theorem final3 (V : (c : Dev nD) → (b : Ref sig .tc) → Buf (Elt Ideal) ((c : Thread nD τ).loc b)) (c : Dev nD) :
    (dat3 (F := Ideal) V c).arrAt 4 cfg3.N = G3 (V c main_v72) (V c main_v44) (V c main_v12) (V c main_v73) :=
  (dat3 (F := Ideal) V c).arrAt_eq_of_cover 4 _ (fun t _ => flushed3_eq V c t) cover3

/-- `G3` is the host expression: the pointwise operations read at an index, each `broadcast_in_dim` at the operand's index. -/
theorem G3_eq (agg xt : S100000x128.Idx → Elt Ideal .f32) (col : S100000x1.Idx → Elt Ideal .f32) (row : S1x128.Idx → Elt Ideal .f32) :
    G3 agg xt col row
      = maximumf (addf (addf agg (mulf (broadcastInDim Cert.ReferenceIdeal.S100000x128 ![0, 1] Cert.ReferenceIdeal.Gen.bcast_S100000x1_S100000x128_0_1 col) xt))
                       (broadcastInDim Cert.ReferenceIdeal.S100000x128 ![0, 1] Cert.ReferenceIdeal.Gen.bcast_S1x128_S100000x128_0_1 row))
                 (broadcastInDim Cert.ReferenceIdeal.S100000x128 ![] Cert.ReferenceIdeal.Gen.bcast_S_S100000x128 (constant (F := Ideal) Cert.ReferenceIdeal.S_ .f32 0x00000000#32)) := by
  funext i
  rw [maximumf_apply, addf_apply, addf_apply, mulf_apply]
  rw [broadcastInDim_apply _ Cert.ReferenceIdeal.Gen.bcast_S100000x1_S100000x128_0_1 col i (colIdx3 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x128_S100000x128_0_1 row i (rowIdx3 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ Cert.ReferenceIdeal.Gen.bcast_S_S100000x128 (constant (F := Ideal) Cert.ReferenceIdeal.S_ .f32 0x00000000#32) i (fun a => a.elim0) (fun a => a.elim0)]
  rfl

theorem region3_out (V : (c : Dev nD) → (b : Ref sig .tc) → Buf (Elt Ideal) ((c : Thread nD τ).loc b)) (c : Dev nD) :
    (dat3 (F := Ideal) V c).arrAt 4 cfg3.N
      = maximumf (addf (addf (V c main_v72) (mulf (broadcastInDim Cert.ReferenceIdeal.S100000x128 ![0, 1] Cert.ReferenceIdeal.Gen.bcast_S100000x1_S100000x128_0_1 (V c main_v12)) (V c main_v44)))
                       (broadcastInDim Cert.ReferenceIdeal.S100000x128 ![0, 1] Cert.ReferenceIdeal.Gen.bcast_S1x128_S100000x128_0_1 (V c main_v73)))
                 (broadcastInDim Cert.ReferenceIdeal.S100000x128 ![] Cert.ReferenceIdeal.Gen.bcast_S_S100000x128 (constant (F := Ideal) Cert.ReferenceIdeal.S_ .f32 0x00000000#32)) :=
  (final3 V c).trans (G3_eq _ _ _ _)

end Cert.KernelIdeal.RegionValue
end
-- ==== Proof.CombineRegion5.lean ====
/-
  The third combine region: the output array after the whole pipeline, as one function of the arrays the region
  finds. Every block of the output is the restriction of one whole-array function — at `(a, q)`,
  `max ((agg (a, q) + col (a, 0) * xt (a, q)) + row (0, q)) 0` — and the fifty row blocks tile the array, so the array
  ends holding that function; read index by index it is the host expression
  `maximum (add (add agg (multiply (broadcast col) xt)) (broadcast row)) (broadcast 0)`.
-/
import proofs.«175076_j1116691497086_2_alg».proof.Proof.Gen.KernelIdeal.Frame
import proofs.«175076_j1116691497086_2_alg».proof.Proof.Gen.ReferenceIdeal
import proofs.«175076_j1116691497086_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

/-- The zero offsets of a whole-buffer access, spelt as the constant function. -/
theorem hz5 : (![0, 0] : Fin 2 → Nat) = fun _ => 0 := funext fun a => by fin_cases a <;> rfl

/-- The row of the `[100000, 1]` column that an index of the `[100000, 64]` array reads. -/
abbrev colIdx5 (i : S100000x64.Idx) : S100000x1.Idx := fun a => match a with
  | ⟨0, _⟩ => ⟨(i 0).val, (i 0).isLt⟩
  | ⟨1, _⟩ => ⟨0, Nat.one_pos⟩

/-- The entry of the `[1, 64]` row that an index of the `[100000, 64]` array reads. -/
abbrev rowIdx5 (i : S100000x64.Idx) : S1x64.Idx := fun a => match a with
  | ⟨0, _⟩ => ⟨0, Nat.one_pos⟩
  | ⟨1, _⟩ => ⟨(i 1).val, (i 1).isLt⟩

/-- The whole-array function every block of the output restricts: at `(a, q)`,
    `max ((agg (a, q) + col (a, 0) * xt (a, q)) + row (0, q)) 0`. -/
def G5 (agg xt : S100000x64.Idx → Elt Ideal .f32) (col : S100000x1.Idx → Elt Ideal .f32) (row : S1x64.Idx → Elt Ideal .f32) :
    S100000x64.Idx → Elt Ideal .f32 :=
  fun i => max ((agg i + col (colIdx5 i) * xt i) + row (rowIdx5 i)) (Ideal.ofBits .f32 0x00000000#32)

/-- The body's payload read at `(p, q)` of its block. -/
theorem pay5_apply (x0 : Vec Ideal S2000x64 .f32) (x2 : Vec Ideal S2000x1 .f32) (x4 : Vec Ideal S2000x64 .f32) (x9 : Vec Ideal S1x64 .f32)
    (p : Fin 2000) (q : Fin 64) :
    k5_pay1 x0 x2 x4 x9 (ix2 p q)
      = max ((x0 (ix2 p q) + x2 (ix2 p (0 : Fin 1)) * x4 (ix2 p q)) + x9 (ix2 (0 : Fin 1) q)) (Ideal.ofBits .f32 0x00000000#32) := by
  unfold k5_pay1
  simp only [shapeCast_self]
  rw [maximumf_apply, addf_apply, addf_apply, mulf_apply, broadcast_apply,
    Cert.LibColumn.broadcastTo_a1_ab_apply, broadcastTo_1b_ab_apply]
  rfl

/-- The printed index maps, decided once over the 50 grid points: the three row-blocked inputs and the output sit at
    block `t` of the rows and block 0 of the columns; the bias row is the whole array at every point. -/
theorem idx_facts5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The combined value read at equal indices is the same value. -/
theorem combine_congr5 (agg xt : FVec Ideal S100000x64 .f32) (col : FVec Ideal S100000x1 .f32) (row : FVec Ideal S1x64 .f32)
    (i0 i1 i4 : S100000x64.Idx) (i2 : S100000x1.Idx) (i3 : S1x64.Idx)
    (h0 : i0 = i4) (h1 : i1 = i4) (h2 : i2 = colIdx5 i4) (h3 : i3 = rowIdx5 i4) :
    max ((agg i0 + col i2 * xt i1) + row i3) (Ideal.ofBits .f32 0x00000000#32)
      = max ((agg i4 + col (colIdx5 i4) * xt i4) + row (rowIdx5 i4)) (Ideal.ofBits .f32 0x00000000#32) := by
  rw [h0, h1, h2, h3]

/-- What point `t` writes back is block `t` of `G5` of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 4 t
      = ((cfg5.win 4).blk t).view.read (Elt Ideal) (G5 (V c main_v103) (V c main_v75) (V c main_v12) (V c main_v104)) := by
  show (cfg5.win 4).cut (grid5.coords t) ((dat5 (F := Ideal) V c).after 4 t) = _
  rw [after5_4]
  unfold out5_4
  rw [View.canon_unit_zero hz5]
  simp only [View.ld_unit_zero (S := S2000x64) hz5, View.ld_unit_zero (S := S2000x1) hz5, View.ld_unit_zero (S := S1x64) hz5]
  obtain ⟨e00, e01, e10, e11, e20, e21, e30, e31, e40, e41⟩ := idx_facts5 t
  funext j
  obtain ⟨p, q, rfl⟩ : ∃ (p : Fin 2000) (q : Fin 64), j = ix2 p q := ⟨j 0, j 1, eq_ix2 j⟩
  show k5_pay1 (iblk5 V c 0 t) (iblk5 V c 2 t) (iblk5 V c 1 t) (iblk5 V c 3 t) (ix2 p q)
      = G5 (V c main_v103) (V c main_v75) (V c main_v12) (V c main_v104) (((cfg5.win 4).blk t).view.emb (ix2 p q))
  rw [pay5_apply]
  unfold G5
  have h0 : ((cfg5.win 0).blk t).view.emb (ix2 p q) = ((cfg5.win 4).blk t).view.emb (ix2 p q) := by
    funext a; apply Fin.ext
    match a with
    | ⟨0, _⟩ => show win5_0.index t (0 : Fin 2) * 2000 + 1 * p.val = win5_4.index t (0 : Fin 2) * 2000 + 1 * p.val; omega
    | ⟨1, _⟩ => show win5_0.index t (1 : Fin 2) * 64 + 1 * q.val = win5_4.index t (1 : Fin 2) * 64 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 2000 + 1 * p.val = win5_4.index t (0 : Fin 2) * 2000 + 1 * p.val; omega
    | ⟨1, _⟩ => show win5_1.index t (1 : Fin 2) * 64 + 1 * q.val = win5_4.index t (1 : Fin 2) * 64 + 1 * q.val; omega
  have h2 : ((cfg5.win 2).blk t).view.emb (ix2 p (0 : Fin 1)) = colIdx5 (((cfg5.win 4).blk t).view.emb (ix2 p q)) := by
    funext a; apply Fin.ext
    match a with
    | ⟨0, _⟩ => show win5_2.index t (0 : Fin 2) * 2000 + 1 * p.val = win5_4.index t (0 : Fin 2) * 2000 + 1 * p.val; omega
    | ⟨1, _⟩ => show win5_2.index t (1 : Fin 2) * 1 + 1 * 0 = 0; omega
  have h3 : ((cfg5.win 3).blk t).view.emb (ix2 (0 : Fin 1) q) = rowIdx5 (((cfg5.win 4).blk t).view.emb (ix2 p q)) := by
    funext a; apply Fin.ext
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega
  exact combine_congr5 (V c main_v103) (V c main_v75) (V c main_v12) (V c main_v104)
    (((cfg5.win 0).blk t).view.emb (ix2 p q)) (((cfg5.win 1).blk t).view.emb (ix2 p q)) (((cfg5.win 4).blk t).view.emb (ix2 p q))
    (((cfg5.win 2).blk t).view.emb (ix2 p (0 : Fin 1))) (((cfg5.win 3).blk t).view.emb (ix2 (0 : Fin 1) q)) h0 h1 h2 h3

/-- An index of the array is in point `t`'s block iff each coordinate is in the block's range on its axis. -/
theorem mem_blk5 (t : Fin cfg5.N) (i : S100000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v105).slice (win5_4.rect t)).set ↔ _
  rw [View.set_slice_whole, Rect.mem_set_unit]
  exact Iff.rfl

/-- Every index of the array is in the block of the point its row falls in: row `r` is in block `r / 2000`. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 50 := N_5
  let t : Fin cfg5.N := ⟨(i 0).val / 2000, by rw [hN]; omega⟩
  have ht : t.val = (i 0).val / 2000 := rfl
  obtain ⟨e00, e01, e10, e11, e20, e21, e30, e31, e40, e41⟩ := idx_facts5 t
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The array after the run is `G5` of the arrays as the region finds them. -/
theorem final5 (V : (c : Dev nD) → (b : Ref sig .tc) → Buf (Elt Ideal) ((c : Thread nD τ).loc b)) (c : Dev nD) :
    (dat5 (F := Ideal) V c).arrAt 4 cfg5.N = G5 (V c main_v103) (V c main_v75) (V c main_v12) (V c main_v104) :=
  (dat5 (F := Ideal) V c).arrAt_eq_of_cover 4 _ (fun t _ => flushed5_eq V c t) cover5

/-- `G5` is the host expression: the pointwise operations read at an index, each `broadcast_in_dim` at the operand's index. -/
theorem G5_eq (agg xt : S100000x64.Idx → Elt Ideal .f32) (col : S100000x1.Idx → Elt Ideal .f32) (row : S1x64.Idx → Elt Ideal .f32) :
    G5 agg xt col row
      = maximumf (addf (addf agg (mulf (broadcastInDim Cert.ReferenceIdeal.S100000x64 ![0, 1] Cert.ReferenceIdeal.Gen.bcast_S100000x1_S100000x64_0_1 col) xt))
                       (broadcastInDim Cert.ReferenceIdeal.S100000x64 ![0, 1] Cert.ReferenceIdeal.Gen.bcast_S1x64_S100000x64_0_1 row))
                 (broadcastInDim Cert.ReferenceIdeal.S100000x64 ![] Cert.ReferenceIdeal.Gen.bcast_S_S100000x64 (constant (F := Ideal) Cert.ReferenceIdeal.S_ .f32 0x00000000#32)) := by
  funext i
  rw [maximumf_apply, addf_apply, addf_apply, mulf_apply]
  rw [broadcastInDim_apply _ Cert.ReferenceIdeal.Gen.bcast_S100000x1_S100000x64_0_1 col i (colIdx5 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ Cert.ReferenceIdeal.Gen.bcast_S1x64_S100000x64_0_1 row i (rowIdx5 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ Cert.ReferenceIdeal.Gen.bcast_S_S100000x64 (constant (F := Ideal) Cert.ReferenceIdeal.S_ .f32 0x00000000#32) i (fun a => a.elim0) (fun a => a.elim0)]
  rfl

theorem region5_out (V : (c : Dev nD) → (b : Ref sig .tc) → Buf (Elt Ideal) ((c : Thread nD τ).loc b)) (c : Dev nD) :
    (dat5 (F := Ideal) V c).arrAt 4 cfg5.N
      = maximumf (addf (addf (V c main_v103) (mulf (broadcastInDim Cert.ReferenceIdeal.S100000x64 ![0, 1] Cert.ReferenceIdeal.Gen.bcast_S100000x1_S100000x64_0_1 (V c main_v12)) (V c main_v75)))
                       (broadcastInDim Cert.ReferenceIdeal.S100000x64 ![0, 1] Cert.ReferenceIdeal.Gen.bcast_S1x64_S100000x64_0_1 (V c main_v104)))
                 (broadcastInDim Cert.ReferenceIdeal.S100000x64 ![] Cert.ReferenceIdeal.Gen.bcast_S_S100000x64 (constant (F := Ideal) Cert.ReferenceIdeal.S_ .f32 0x00000000#32)) :=
  (final5 V c).trans (G5_eq _ _ _ _)

end Cert.KernelIdeal.RegionValue
end
-- ==== Proof.BiasRegion7.lean ====
/-
  The bias region: the output column after the whole pipeline, as one function of the arrays the region finds. Every
  block of the output is the restriction of one whole-array function — at `(a, 0)`, `x (a, 0) + b (0, 0)` — and the
  fifty row blocks tile the column, so the array ends holding that function; read index by index it is the host
  expression `add x (broadcast b)`.
-/
import proofs.«175076_j1116691497086_2_alg».proof.Proof.Gen.KernelIdeal.Frame
import proofs.«175076_j1116691497086_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

/-- The zero offsets of a whole-buffer access, spelt as the constant function. -/
theorem hz7 : (![0, 0] : Fin 2 → Nat) = fun _ => 0 := funext fun a => by fin_cases a <;> rfl

/-- The one entry of the `[1, 1]` array, as the index every index of the column reads. -/
abbrev biasIdx7 (i : S100000x1.Idx) : S1x1.Idx := fun a => match a with
  | ⟨0, _⟩ => ⟨0, Nat.one_pos⟩
  | ⟨1, _⟩ => ⟨0, Nat.one_pos⟩

/-- The whole-array function every block of the output restricts: at `(a, 0)`, `x (a, 0) + b (0, 0)`. -/
def G7 (x : S100000x1.Idx → Elt Ideal .f32) (b : S1x1.Idx → Elt Ideal .f32) : S100000x1.Idx → Elt Ideal .f32 :=
  fun i => x i + b (biasIdx7 i)

/-- The body's payload read at `(p, z)` of its block. -/
theorem pay7_apply (x0 : Vec Ideal S2000x1 .f32) (x2 : Vec Ideal S1x1 .f32) (p : Fin 2000) (z : Fin 1) :
    k7_pay1 x0 x2 (ix2 p z) = x0 (ix2 p z) + x2 (ix2 (0 : Fin 1) z) := by
  unfold k7_pay1
  simp only [shapeCast_self]
  rw [addf_apply, broadcastTo_1b_ab_apply]

/-- The printed index maps, decided once over the 50 grid points: the input column and the output sit at block `t` of
    the rows; the bias is the whole array at every point. -/
theorem idx_facts7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The sum read at equal indices is the same value. -/
theorem bias_congr7 (x : FVec Ideal S100000x1 .f32) (b : FVec Ideal S1x1 .f32) (i0 i2 : S100000x1.Idx) (i1 : S1x1.Idx)
    (h0 : i0 = i2) (h1 : i1 = biasIdx7 i2) : x i0 + b i1 = x i2 + b (biasIdx7 i2) := by
  rw [h0, h1]

/-- What point `t` writes back is block `t` of `G7` of the arrays as the region finds them. -/
theorem flushed7_eq (V : (c : Dev nD) → (b : Ref sig .tc) → Buf (Elt Ideal) ((c : Thread nD τ).loc b)) (c : Dev nD) (t : Fin cfg7.N) :
    (dat7 (F := Ideal) V c).flushed 2 t
      = ((cfg7.win 2).blk t).view.read (Elt Ideal) (G7 (V c main_v106) (V c main_v107)) := by
  show (cfg7.win 2).cut (grid7.coords t) ((dat7 (F := Ideal) V c).after 2 t) = _
  rw [after7_2]
  unfold out7_2
  rw [View.canon_unit_zero hz7]
  simp only [View.ld_unit_zero (S := S2000x1) hz7, View.ld_unit_zero (S := S1x1) hz7]
  obtain ⟨e00, e01, e10, e11, e20, e21⟩ := idx_facts7 t
  funext j
  obtain ⟨p, z, rfl⟩ : ∃ (p : Fin 2000) (z : Fin 1), j = ix2 p z := ⟨j 0, j 1, eq_ix2 j⟩
  show k7_pay1 (iblk7 V c 0 t) (iblk7 V c 1 t) (ix2 p z)
      = G7 (V c main_v106) (V c main_v107) (((cfg7.win 2).blk t).view.emb (ix2 p z))
  rw [pay7_apply]
  unfold G7
  have hzv : z.val = 0 := by have := z.isLt; omega
  have h0 : ((cfg7.win 0).blk t).view.emb (ix2 p z) = ((cfg7.win 2).blk t).view.emb (ix2 p z) := by
    funext a; apply Fin.ext
    match a with
    | ⟨0, _⟩ => show win7_0.index t (0 : Fin 2) * 2000 + 1 * p.val = win7_2.index t (0 : Fin 2) * 2000 + 1 * p.val; omega
    | ⟨1, _⟩ => show win7_0.index t (1 : Fin 2) * 1 + 1 * z.val = win7_2.index t (1 : Fin 2) * 1 + 1 * z.val; omega
  have h1 : ((cfg7.win 1).blk t).view.emb (ix2 (0 : Fin 1) z) = biasIdx7 (((cfg7.win 2).blk t).view.emb (ix2 p z)) := by
    funext a; apply Fin.ext
    match a with
    | ⟨0, _⟩ => show win7_1.index t (0 : Fin 2) * 1 + 1 * 0 = 0; omega
    | ⟨1, _⟩ => show win7_1.index t (1 : Fin 2) * 1 + 1 * z.val = 0; omega
  exact bias_congr7 (V c main_v106) (V c main_v107)
    (((cfg7.win 0).blk t).view.emb (ix2 p z)) (((cfg7.win 2).blk t).view.emb (ix2 p z))
    (((cfg7.win 1).blk t).view.emb (ix2 (0 : Fin 1) z)) h0 h1

/-- An index of the array is in point `t`'s block iff each coordinate is in the block's range on its axis. -/
theorem mem_blk7 (t : Fin cfg7.N) (i : S100000x1.Idx) :
    i ∈ ((cfg7.win 2).blk t).view.set ↔ ∀ a : Fin 2, win7_2.index t a * S2000x1.size a ≤ (i a).val ∧ (i a).val < win7_2.index t a * S2000x1.size a + S2000x1.size a := by
  show i ∈ ((View.whole main_v108).slice (win7_2.rect t)).set ↔ _
  rw [View.set_slice_whole, Rect.mem_set_unit]
  exact Iff.rfl

/-- Every index of the array is in the block of the point its row falls in: row `r` is in block `r / 2000`. -/
theorem cover7 (i : S100000x1.Idx) : ∃ t : Fin cfg7.N, (cfg7.win 2).flush t = true ∧ i ∈ ((cfg7.win 2).blk t).view.set := by
  have hi0 : (i 0).val < 100000 := (i 0).isLt
  have hi1 : (i 1).val < 1 := (i 1).isLt
  have hN : cfg7.N = 50 := N_7
  let t : Fin cfg7.N := ⟨(i 0).val / 2000, by rw [hN]; omega⟩
  have ht : t.val = (i 0).val / 2000 := rfl
  obtain ⟨e00, e01, e10, e11, e20, e21⟩ := idx_facts7 t
  refine ⟨t, flush7_2 t, ?_⟩
  rw [mem_blk7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 1 ≤ (i 1).val ∧ (i 1).val < win7_2.index t (1 : Fin 2) * 1 + 1; omega

/-- The array after the run is `G7` of the arrays as the region finds them. -/
theorem final7 (V : (c : Dev nD) → (b : Ref sig .tc) → Buf (Elt Ideal) ((c : Thread nD τ).loc b)) (c : Dev nD) :
    (dat7 (F := Ideal) V c).arrAt 2 cfg7.N = G7 (V c main_v106) (V c main_v107) :=
  (dat7 (F := Ideal) V c).arrAt_eq_of_cover 2 _ (fun t _ => flushed7_eq V c t) cover7

/-- `G7` is the host expression: the sum read at an index, the `broadcast_in_dim` at the operand's one index. -/
theorem G7_eq (x : S100000x1.Idx → Elt Ideal .f32) (b : S1x1.Idx → Elt Ideal .f32) :
    G7 x b = addf (F := Ideal) (φ := .f32) x (broadcastInDim Cert.ReferenceIdeal.S100000x1 ![0, 1] Cert.ReferenceIdeal.Gen.bcast_S1x1_S100000x1_0_1 b) := by
  funext i
  rw [addf_apply]
  rw [broadcastInDim_apply _ Cert.ReferenceIdeal.Gen.bcast_S1x1_S100000x1_0_1 b i (biasIdx7 i) (fun a => match a with
      | ⟨0, _⟩ => by show 0 = if (1 : Nat) = 1 then 0 else (i 0).val; rw [if_pos rfl]
      | ⟨1, _⟩ => by show 0 = if (1 : Nat) = 1 then 0 else (i 1).val; rw [if_pos rfl])]
  rfl

theorem region7_out (V : (c : Dev nD) → (b : Ref sig .tc) → Buf (Elt Ideal) ((c : Thread nD τ).loc b)) (c : Dev nD) :
    (dat7 (F := Ideal) V c).arrAt 2 cfg7.N
      = addf (F := Ideal) (φ := .f32) (V c main_v106) (broadcastInDim Cert.ReferenceIdeal.S100000x1 ![0, 1] Cert.ReferenceIdeal.Gen.bcast_S1x1_S100000x1_0_1 (V c main_v107)) :=
  (final7 V c).trans (G7_eq _ _)

end Cert.KernelIdeal.RegionValue
end
-- ==== Proof.FoldValue.lean ====
/-
  The kernel program's buffers, followed segment by segment from the launch memory to the result.

  The program is five stretches of host operations and eight tiled regions. At each boundary between two segments,
  every buffer a later segment reads holds a stage of the reference computation, as a function of the argument
  arrays: after the first stretch the two index vectors of the edge list, the inverse square roots of the degrees
  and the column of their squares; then, layer by layer, the projected features (a region: a matrix product), the
  scattered sum of the normalised messages and the bias row (host operations, the same as the reference's), the
  layer's output (a region: sum + squares · projected + bias, then the maximum with zero); and last the product with
  the final weights and the addition of the final bias (two regions). A region's output array is the reference's
  operation of its input arrays; a stretch of host operations is evaluated operation by operation; a buffer no
  segment in between writes keeps its contents. A bias vector reshaped to a row, and the squares reshaped to a column,
  are the broadcasts the reference spells instead.
-/
import proofs.«175076_j1116691497086_2_alg».proof.Proof.Gen.KernelIdeal.Frame
import proofs.«175076_j1116691497086_2_alg».proof.Proof.Gen.ReferenceIdeal.Read
import proofs.«175076_j1116691497086_2_alg».proof.Proof.FoldKeep
import proofs.«175076_j1116691497086_2_alg».proof.Proof.LayoutCasts
import proofs.«175076_j1116691497086_2_alg».proof.Proof.MatmulRegion0
import proofs.«175076_j1116691497086_2_alg».proof.Proof.MatmulRegion2
import proofs.«175076_j1116691497086_2_alg».proof.Proof.MatmulRegion4
import proofs.«175076_j1116691497086_2_alg».proof.Proof.MatmulRegion6
import proofs.«175076_j1116691497086_2_alg».proof.Proof.CombineRegion1
import proofs.«175076_j1116691497086_2_alg».proof.Proof.CombineRegion3
import proofs.«175076_j1116691497086_2_alg».proof.Proof.CombineRegion5
import proofs.«175076_j1116691497086_2_alg».proof.Proof.BiasRegion7

set_option maxRecDepth 16384

noncomputable section

namespace Cert.KernelIdeal.FoldValue

open Cert.KernelIdeal Cert.KernelIdeal.Gen Cert.KernelIdeal.FoldKeep Cert.KernelIdeal.RegionValue
open Cert.ReferenceIdeal.Read
open Idealize.ShloMosaic Idealize.ShloMosaic.TcCoe Idealize.ShloMosaic.Tactic Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

-- the argument arrays as launched
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## After the first stretch of host operations: the two index vectors, the inverse square roots of the degrees,
and the column of their squares -/

theorem at1_v1 : W1 m ρ c (Proc.devRef .tc main_v1) = val_main_v1 (F := Ideal) x1 := by
  show StableHlo.after hostOps0 (W0 m ρ c) (Proc.devRef .tc main_v1) = _
  after_results_simp <;> rfl
theorem at1_v3 : W1 m ρ c (Proc.devRef .tc main_v3) = val_main_v3 (F := Ideal) x1 := by
  show StableHlo.after hostOps0 (W0 m ρ c) (Proc.devRef .tc main_v3) = _
  after_results_simp <;> rfl
theorem at1_v10 : W1 m ρ c (Proc.devRef .tc main_v10) = val_main_v10 (F := Ideal) x1 := by
  show StableHlo.after hostOps0 (W0 m ρ c) (Proc.devRef .tc main_v10) = _
  after_results_simp <;> rfl
theorem at1_v12 : W1 m ρ c (Proc.devRef .tc main_v12) = val_main_v41 (F := Ideal) x1 :=
  (show StableHlo.after hostOps0 (W0 m ρ c) (Proc.devRef .tc main_v12)
      = shapeCast S100000x1 (val_main_v40 (F := Ideal) x1) shapeCasts_S100000_S100000x1 from by
    after_results_simp <;> rfl).trans (col_cast _)

/-! ## The first layer -/

theorem at2_v13 : W2 m ρ c (Proc.devRef .tc main_v13) = val_main_v11 (F := Ideal) x0 x2 := by
  refine (W2_arr m ρ c 2).trans ((region0_out (V1 m ρ) c).trans ?_)
  dsimp only [V1]
  rw [keep_arg0_0_1, keep_arg2_0_1]; rfl
theorem at2_v1 : W2 m ρ c (Proc.devRef .tc main_v1) = val_main_v1 (F := Ideal) x1 := (keep_v1_1_2 m ρ c).trans (at1_v1 m ρ c)
theorem at2_v3 : W2 m ρ c (Proc.devRef .tc main_v3) = val_main_v3 (F := Ideal) x1 := (keep_v3_1_2 m ρ c).trans (at1_v3 m ρ c)
theorem at2_v10 : W2 m ρ c (Proc.devRef .tc main_v10) = val_main_v10 (F := Ideal) x1 := (keep_v10_1_2 m ρ c).trans (at1_v10 m ρ c)

theorem at3_v41 : W3 m ρ c (Proc.devRef .tc main_v41) = val_main_v39 (F := Ideal) x0 x1 x2 := by
  show StableHlo.after hostOps1 (W2 m ρ c) (Proc.devRef .tc main_v41) = _
  after_results_simp
  rw [at2_v13, at2_v1, at2_v3, at2_v10]; rfl
theorem at3_v42 : W3 m ρ c (Proc.devRef .tc main_v42) = val_main_v45 (F := Ideal) x3 := by
  refine (show StableHlo.after hostOps1 (W2 m ρ c) (Proc.devRef .tc main_v42)
      = shapeCast S1x256 (W2 m ρ c (Proc.devRef .tc main_arg3)) shapeCasts_S256_S1x256 from by after_results_simp <;> rfl).trans ?_
  rw [keep_arg3_0_2]; exact row_cast256 _
theorem at3_v13 : W3 m ρ c (Proc.devRef .tc main_v13) = val_main_v11 (F := Ideal) x0 x2 := (keep_v13_2_3 m ρ c).trans (at2_v13 m ρ c)
theorem at3_v12 : W3 m ρ c (Proc.devRef .tc main_v12) = val_main_v41 (F := Ideal) x1 := (keep_v12_1_3 m ρ c).trans (at1_v12 m ρ c)

theorem at4_v43 : W4 m ρ c (Proc.devRef .tc main_v43) = val_main_v48 (F := Ideal) x0 x1 x2 x3 := by
  refine (W4_arr m ρ c 4).trans ((region1_out (V3 m ρ) c).trans ?_)
  dsimp only [V3]
  rw [at3_v41, at3_v12, at3_v13, at3_v42]; rfl

/-! ## The second layer -/

theorem at5_v44 : W5 m ρ c (Proc.devRef .tc main_v44) = val_main_v49 (F := Ideal) x0 x1 x2 x3 x4 := by
  refine (W5_arr m ρ c 2).trans ((region2_out (V4 m ρ) c).trans ?_)
  dsimp only [V4]
  rw [at4_v43, keep_arg4_0_4]; rfl
theorem at5_v1 : W5 m ρ c (Proc.devRef .tc main_v1) = val_main_v1 (F := Ideal) x1 := (keep_v1_2_5 m ρ c).trans (at2_v1 m ρ c)
theorem at5_v3 : W5 m ρ c (Proc.devRef .tc main_v3) = val_main_v3 (F := Ideal) x1 := (keep_v3_2_5 m ρ c).trans (at2_v3 m ρ c)
theorem at5_v10 : W5 m ρ c (Proc.devRef .tc main_v10) = val_main_v10 (F := Ideal) x1 := (keep_v10_2_5 m ρ c).trans (at2_v10 m ρ c)

theorem at6_v72 : W6 m ρ c (Proc.devRef .tc main_v72) = val_main_v77 (F := Ideal) x0 x1 x2 x3 x4 := by
  show StableHlo.after hostOps3 (W5 m ρ c) (Proc.devRef .tc main_v72) = _
  after_results_simp
  rw [at5_v44, at5_v1, at5_v3, at5_v10]; rfl
theorem at6_v73 : W6 m ρ c (Proc.devRef .tc main_v73) = val_main_v83 (F := Ideal) x5 := by
  refine (show StableHlo.after hostOps3 (W5 m ρ c) (Proc.devRef .tc main_v73)
      = shapeCast S1x128 (W5 m ρ c (Proc.devRef .tc main_arg5)) shapeCasts_S128_S1x128 from by after_results_simp <;> rfl).trans ?_
  rw [keep_arg5_0_5]; exact row_cast128 _
theorem at6_v44 : W6 m ρ c (Proc.devRef .tc main_v44) = val_main_v49 (F := Ideal) x0 x1 x2 x3 x4 := (keep_v44_5_6 m ρ c).trans (at5_v44 m ρ c)
theorem at6_v12 : W6 m ρ c (Proc.devRef .tc main_v12) = val_main_v41 (F := Ideal) x1 := (keep_v12_3_6 m ρ c).trans (at3_v12 m ρ c)

theorem at7_v74 : W7 m ρ c (Proc.devRef .tc main_v74) = val_main_v86 (F := Ideal) x0 x1 x2 x3 x4 x5 := by
  refine (W7_arr m ρ c 4).trans ((region3_out (V6 m ρ) c).trans ?_)
  dsimp only [V6]
  rw [at6_v72, at6_v12, at6_v44, at6_v73]; rfl

/-! ## The third layer -/

theorem at8_v75 : W8 m ρ c (Proc.devRef .tc main_v75) = val_main_v87 (F := Ideal) x0 x1 x2 x3 x4 x5 x6 := by
  refine (W8_arr m ρ c 2).trans ((region4_out (V7 m ρ) c).trans ?_)
  dsimp only [V7]
  rw [at7_v74, keep_arg6_0_7]; rfl
theorem at8_v1 : W8 m ρ c (Proc.devRef .tc main_v1) = val_main_v1 (F := Ideal) x1 := (keep_v1_5_8 m ρ c).trans (at5_v1 m ρ c)
theorem at8_v3 : W8 m ρ c (Proc.devRef .tc main_v3) = val_main_v3 (F := Ideal) x1 := (keep_v3_5_8 m ρ c).trans (at5_v3 m ρ c)
theorem at8_v10 : W8 m ρ c (Proc.devRef .tc main_v10) = val_main_v10 (F := Ideal) x1 := (keep_v10_5_8 m ρ c).trans (at5_v10 m ρ c)

theorem at9_v103 : W9 m ρ c (Proc.devRef .tc main_v103) = val_main_v115 (F := Ideal) x0 x1 x2 x3 x4 x5 x6 := by
  show StableHlo.after hostOps5 (W8 m ρ c) (Proc.devRef .tc main_v103) = _
  after_results_simp
  rw [at8_v75, at8_v1, at8_v3, at8_v10]; rfl
theorem at9_v104 : W9 m ρ c (Proc.devRef .tc main_v104) = val_main_v121 (F := Ideal) x7 := by
  refine (show StableHlo.after hostOps5 (W8 m ρ c) (Proc.devRef .tc main_v104)
      = shapeCast S1x64 (W8 m ρ c (Proc.devRef .tc main_arg7)) shapeCasts_S64_S1x64 from by after_results_simp <;> rfl).trans ?_
  rw [keep_arg7_0_8]; exact row_cast64 _
theorem at9_v75 : W9 m ρ c (Proc.devRef .tc main_v75) = val_main_v87 (F := Ideal) x0 x1 x2 x3 x4 x5 x6 := (keep_v75_8_9 m ρ c).trans (at8_v75 m ρ c)
theorem at9_v12 : W9 m ρ c (Proc.devRef .tc main_v12) = val_main_v41 (F := Ideal) x1 := (keep_v12_6_9 m ρ c).trans (at6_v12 m ρ c)

theorem at10_v105 : W10 m ρ c (Proc.devRef .tc main_v105) = val_main_v124 (F := Ideal) x0 x1 x2 x3 x4 x5 x6 x7 := by
  refine (W10_arr m ρ c 4).trans ((region5_out (V9 m ρ) c).trans ?_)
  dsimp only [V9]
  rw [at9_v103, at9_v12, at9_v75, at9_v104]; rfl

/-! ## The final linear layer -/

theorem at11_v106 : W11 m ρ c (Proc.devRef .tc main_v106) = val_main_v125 (F := Ideal) x0 x1 x2 x3 x4 x5 x6 x7 x8 := by
  refine (W11_arr m ρ c 2).trans ((region6_out (V10 m ρ) c).trans ?_)
  dsimp only [V10]
  rw [at10_v105, keep_arg8_0_10]; rfl
theorem at12_v107 : W12 m ρ c (Proc.devRef .tc main_v107) = val_main_v126 (F := Ideal) x9 := by
  refine (show StableHlo.after hostOps7 (W11 m ρ c) (Proc.devRef .tc main_v107)
      = shapeCast S1x1 (W11 m ρ c (Proc.devRef .tc main_arg9)) shapeCasts_S1_S1x1 from by after_results_simp <;> rfl).trans ?_
  rw [keep_arg9_0_11]; exact row_cast1 _
theorem at12_v106 : W12 m ρ c (Proc.devRef .tc main_v106) = val_main_v125 (F := Ideal) x0 x1 x2 x3 x4 x5 x6 x7 x8 := (keep_v106_11_12 m ρ c).trans (at11_v106 m ρ c)

/-- What the result buffer holds after the last region: the reference's result as a function of the argument arrays. -/
theorem at13_v108 : W13 m ρ c (Proc.devRef .tc main_v108) = val_main_v128 (F := Ideal) x0 x1 x2 x3 x4 x5 x6 x7 x8 x9 := by
  refine (W13_arr m ρ c 2).trans ((region7_out (V12 m ρ) c).trans ?_)
  dsimp only [V12]
  rw [at12_v106, at12_v107]; rfl

end Cert.KernelIdeal.FoldValue

end
-- ==== Proof.lean ====
/-
  The kernel is a three-layer graph convolution network followed by a linear layer, over 100000 nodes and 800000
  directed edges. With src and dst the two rows of the edge list, deg = (the number of edges into a node) + 1,
  dinv = deg^(-1/2), each layer maps the node features h to

      relu ( scatter_add over dst of ( (h W)[src] · dinv[src] · dinv[dst] )  +  dinv² · (h W)  +  b ),

  and the result is h₃ Wl + bl. The kernel program computes each product h W, each combination "sum + dinv² · (h W) + b,
  then the maximum with zero", and the last addition of bl in a tiled region of its own — rows in blocks of 10000 or
  2000, the weights and the bias row whole at every block — and everything else (the degrees, the gathers along the
  edges, the scatter-add) by the same host operations as the reference, in the same order. Over the extended reals a
  change of float format is the identity, a tile of a matrix product is the same sum over the contracted axis as the
  whole product's entry, and the pointwise combination of a block is the block of the pointwise combination; so each
  region's output array is the reference's own operation applied to the region's input arrays, and, walking the
  program's segments from the launch memory, every buffer the next segment reads holds the reference's value of the
  same stage. No law of arithmetic beyond that is used: the two programs are the same expression tree of the argument
  arrays, so the equality needs no finiteness of the inputs.

  The three frame claims are the generated frames (the reference's is its generated run with the result dropped);
  nothing was rewritten by the idealization, so that claim is trivial.
-/
import proofs.«175076_j1116691497086_2_alg».proof.Defs
import proofs.«175076_j1116691497086_2_alg».proof.Proof.Gen.Kernel
import proofs.«175076_j1116691497086_2_alg».proof.Proof.Gen.Kernel.Frame
import proofs.«175076_j1116691497086_2_alg».proof.Proof.Gen.KernelIdeal
import proofs.«175076_j1116691497086_2_alg».proof.Proof.Gen.KernelIdeal.Frame
import proofs.«175076_j1116691497086_2_alg».proof.Proof.Gen.ReferenceIdeal
import proofs.«175076_j1116691497086_2_alg».proof.Proof.Gen.Pre_finite_inputs
import proofs.«175076_j1116691497086_2_alg».proof.Proof.Gen.ReferenceIdeal.Read
import proofs.«175076_j1116691497086_2_alg».proof.Proof.KernelRun
import proofs.«175076_j1116691497086_2_alg».proof.Proof.FoldValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ
/-- The idealized kernel program runs and leaves its arguments unchanged. -/
theorem frame_kernelIdeal : Cert.frame_KernelIdeal := fun m ρ _ => Cert.KernelIdeal.Gen.frame m ρ
/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage, as a function of the argument arrays, in the result buffer:
    the kernel program because each of its segments reproduces the reference's stages, the reference by its own run;
    the two launch memories agree on the arguments. -/
theorem algebraic : Cert.algebraic_KernelIdeal_ReferenceIdeal := by
  intro m ρ m' ρ' _ hagree
  refine ⟨fun c => Cert.ReferenceIdeal.Read.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.FoldValue.at13_v108 m ρ c), (h c).2⟩)
      (Cert.KernelIdeal.RunValue.run_result m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9⟩ := hagree c
    rw [(h c).1, Cert.ReferenceIdeal.Read.val_main_v128_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
